-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S5x128x128 : Shape := ⟨3, ![5, 128, 128]⟩
abbrev S5x128 : Shape := ⟨2, ![5, 128]⟩
abbrev S2x625000 : Shape := ⟨2, ![2, 625000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_arg4 : FVec F S5x128 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128 .f32 := Host.absf main_arg4
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  main_v23

def fn {F : FTy → Type} [FloatOps F] (main_arg0 : FVec F S200000x128 .f32) (main_arg1 : FVec F S5x128x128 .f32) (main_arg2 : FVec F S5x128 .f32) (main_arg3 : FVec F S5x128x128 .f32) (main_arg4 : FVec F S5x128 .f32) (main_arg5 : IVec S2x625000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S5x128x128 .f32 := Host.absf main_arg1
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg2
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128x128 .f32 := Host.absf main_arg3
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg4 main_v13 main_v16
-- ==== Kernel.lean ====
abbrev S200000x128 : Shape := ⟨2, ![200000, 128]⟩
abbrev S5x128x128 : Shape := ⟨3, ![5, 128, 128]⟩
abbrev S5x128 : Shape := ⟨2, ![5, 128]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S200000 : Shape := ⟨1, ![200000]⟩
abbrev S625000x1 : Shape := ⟨2, ![625000, 1]⟩
abbrev S200000x1 : Shape := ⟨2, ![200000, 1]⟩
abbrev S1x5 : Shape := ⟨2, ![1, 5]⟩
abbrev S200000x5 : Shape := ⟨2, ![200000, 5]⟩
abbrev S625000x128 : Shape := ⟨2, ![625000, 128]⟩
abbrev S128x5x128 : Shape := ⟨3, ![128, 5, 128]⟩
abbrev S128x640 : Shape := ⟨2, ![128, 640]⟩
abbrev S256x640 : Shape := ⟨2, ![256, 640]⟩
abbrev S2000x128 : Shape := ⟨2, ![2000, 128]⟩
abbrev S2000x1 : Shape := ⟨2, ![2000, 1]⟩
abbrev S2000x5 : Shape := ⟨2, ![2000, 5]⟩
abbrev S2000x256 : Shape := ⟨2, ![2000, 256]⟩
abbrev S2000x640 : Shape := ⟨2, ![2000, 640]⟩
abbrev S1x128 : Shape := ⟨2, ![1, 128]⟩
abbrev S128 : Shape := ⟨1, ![128]⟩

abbrev nBuf : Space → Nat
  | .hbm => 56
  | .vmem => 12
  | .smem => 0
  | _ => 0

abbrev bufTy : (tb : Table) → Fin (tcTables nBuf tb) → BufTy
  | .hbm, ⟨0, _⟩ => ⟨S200000x128, .f32⟩
  | .hbm, ⟨1, _⟩ => ⟨S5x128x128, .f32⟩
  | .hbm, ⟨2, _⟩ => ⟨S5x128, .f32⟩
  | .hbm, ⟨3, _⟩ => ⟨S5x128x128, .f32⟩
  | .hbm, ⟨4, _⟩ => ⟨S5x128, .f32⟩
  | .hbm, ⟨5, _⟩ => ⟨S2x625000, .i32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .i32⟩
  | .hbm, ⟨11, _⟩ => ⟨S625000, .i32⟩
  | .hbm, ⟨12, _⟩ => ⟨S_, .i32⟩
  | .hbm, ⟨13, _⟩ => ⟨S200000, .i32⟩
  | .hbm, ⟨14, _⟩ => ⟨S625000x1, .i32⟩
  | .hbm, ⟨15, _⟩ => ⟨S200000, .i32⟩
  | .hbm, ⟨16, _⟩ => ⟨S200000, .f32⟩
  | .hbm, ⟨17, _⟩ => ⟨S_, .f32⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S200000x1, .f32⟩
  | .hbm, ⟨25, _⟩ => ⟨S_, .i32⟩
  | .hbm, ⟨26, _⟩ => ⟨S200000, .i32⟩
  | .hbm, ⟨27, _⟩ => ⟨S200000, .i32⟩
  | .hbm, ⟨28, _⟩ => ⟨S200000x1, .i32⟩
  | .hbm, ⟨29, _⟩ => ⟨S1x5, .i32⟩
  | .hbm, ⟨30, _⟩ => ⟨S200000x5, .i32⟩
  | .hbm, ⟨31, _⟩ => ⟨S200000x5, .i32⟩
  | .hbm, ⟨32, _⟩ => ⟨S200000x5, .i1⟩
  | .hbm, ⟨33, _⟩ => ⟨S200000x5, .f32⟩
  | .hbm, ⟨34, _⟩ => ⟨S_, .i32⟩
  | .hbm, ⟨35, _⟩ => ⟨S625000, .i32⟩
  | .hbm, ⟨36, _⟩ => ⟨S625000, .i1⟩
  | .hbm, ⟨37, _⟩ => ⟨S_, .i32⟩
  | .hbm, ⟨38, _⟩ => ⟨S625000, .i32⟩
  | .hbm, ⟨39, _⟩ => ⟨S625000, .i32⟩
  | .hbm, ⟨40, _⟩ => ⟨S625000, .i32⟩
  | .hbm, ⟨41, _⟩ => ⟨S625000x1, .i32⟩
  | .hbm, ⟨42, _⟩ => ⟨S625000x128, .f32⟩
  | .hbm, ⟨43, _⟩ => ⟨S_, .f32⟩
  | .hbm, ⟨44, _⟩ => ⟨S200000x128, .f32⟩
  | .hbm, ⟨45, _⟩ => ⟨S625000x1, .i32⟩
  | .hbm, ⟨46, _⟩ => ⟨S200000x128, .f32⟩
  | .hbm, ⟨47, _⟩ => ⟨S200000x128, .bf16⟩
  | .hbm, ⟨48, _⟩ => ⟨S128x5x128, .f32⟩
  | .hbm, ⟨49, _⟩ => ⟨S128x640, .f32⟩
  | .hbm, ⟨50, _⟩ => ⟨S128x5x128, .f32⟩
  | .hbm, ⟨51, _⟩ => ⟨S128x640, .f32⟩
  | .hbm, ⟨52, _⟩ => ⟨S256x640, .f32⟩
  | .hbm, ⟨53, _⟩ => ⟨S256x640, .bf16⟩
  | .hbm, ⟨54, _⟩ => ⟨S5x128, .f32⟩
  | .hbm, ⟨55, _⟩ => ⟨S200000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x5, .f32⟩
  | .local _ .vmem, ⟨7, _⟩ => ⟨S2000x5, .f32⟩
  | .local _ .vmem, ⟨8, _⟩ => ⟨S256x640, .bf16⟩
  | .local _ .vmem, ⟨9, _⟩ => ⟨S5x128, .f32⟩
  | .local _ .vmem, ⟨10, _⟩ => ⟨S2000x128, .f32⟩
  | .local _ .vmem, ⟨11, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S200000 : S_.BroadcastsInDim S200000 (![] : Fin 0 → Fin S200000.rank)
  bcast_S625000_S625000x1_0 : S625000.BroadcastsInDim S625000x1 (![0] : Fin 1 → Fin S625000x1.rank)
  shapeCasts_S200000_S200000x1 : S200000.ShapeCasts S200000x1
  bcast_S200000_S200000x1_0 : S200000.BroadcastsInDim S200000x1 (![0] : Fin 1 → Fin S200000x1.rank)
  bcast_S200000x1_S200000x5_0_1 : S200000x1.BroadcastsInDim S200000x5 (![0, 1] : Fin 2 → Fin S200000x5.rank)
  bcast_S1x5_S200000x5_0_1 : S1x5.BroadcastsInDim S200000x5 (![0, 1] : Fin 2 → Fin S200000x5.rank)
  bcast_S_S200000x128 : S_.BroadcastsInDim S200000x128 (![] : Fin 0 → Fin S200000x128.rank)
  bitsLt_bf16_f32 : FTy.bits .bf16 < FTy.bits .f32
  transposes_S5x128x128_S128x5x128_2_0_1 : S5x128x128.Transposes [2, 0, 1] S128x5x128
  shapeCasts_S128x5x128_S128x640 : S128x5x128.ShapeCasts S128x640
  concatenates_S128x640_S128x640_S256x640_d0 : Shape.Concatenates [S128x640, S128x640] S256x640 0
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  concatenates_S2000x128_S2000x128_S2000x256_d1 : Shape.Concatenates [S2000x128, S2000x128] S2000x256 1
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S2000x5_S2000x5_0_0 : ∀ a, (![0, 0] : Fin 2 → Nat) a + S2000x5.size a ≤ S2000x5.size a
  h_S2000x5 : 0 < S2000x5.numel
  shapeCasts_S2000x5_S2000x5 : S2000x5.ShapeCasts S2000x5
  slices_S2000x640_o0_0_S2000x128 : S2000x640.Slices ![0, 0] S2000x128
  inb_S5x128_S1x128_0_0 : ∀ a, (![0, 0] : Fin 2 → Nat) a + S1x128.size a ≤ S5x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  slices_S2000x5_o0_0_S2000x1 : S2000x5.Slices ![0, 0] S2000x1
  slices_S2000x640_o0_128_S2000x128 : S2000x640.Slices ![0, 128] S2000x128
  inb_S5x128_S1x128_1_0 : ∀ a, (![1, 0] : Fin 2 → Nat) a + S1x128.size a ≤ S5x128.size a
  slices_S2000x5_o0_1_S2000x1 : S2000x5.Slices ![0, 1] S2000x1
  slices_S2000x640_o0_256_S2000x128 : S2000x640.Slices ![0, 256] S2000x128
  inb_S5x128_S1x128_2_0 : ∀ a, (![2, 0] : Fin 2 → Nat) a + S1x128.size a ≤ S5x128.size a
  slices_S2000x5_o0_2_S2000x1 : S2000x5.Slices ![0, 2] S2000x1
  slices_S2000x640_o0_384_S2000x128 : S2000x640.Slices ![0, 384] S2000x128
  inb_S5x128_S1x128_3_0 : ∀ a, (![3, 0] : Fin 2 → Nat) a + S1x128.size a ≤ S5x128.size a
  slices_S2000x5_o0_3_S2000x1 : S2000x5.Slices ![0, 3] S2000x1
  slices_S2000x640_o0_512_S2000x128 : S2000x640.Slices ![0, 512] S2000x128
  inb_S5x128_S1x128_4_0 : ∀ a, (![4, 0] : Fin 2 → Nat) a + S1x128.size a ≤ S5x128.size a
  slices_S2000x5_o0_4_S2000x1 : S2000x5.Slices ![0, 4] S2000x1
  scatter_S200000_S625000x1_S625000_n_0_0_1_wf : ScatterDims.WF S200000 S625000x1 S625000 [] [0] [0] 1
  gather_S200000x128_S625000x1_S625000x128_1_0_n_n_0_1_1128_wf : GatherDims.WF S200000x128 S625000x1 S625000x128 [1] [0] [] [0] [] 1 ![1, 128]
  scatter_S200000x128_S625000x1_S625000x128_1_0_0_1_wf : ScatterDims.WF S200000x128 S625000x1 S625000x128 [1] [0] [0] 1
  dot_S2000x256_S256x640_S2000x640_1_0_0_1_n_n_wf : DotDims.WF S2000x256 S256x640 S2000x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .bf16 = 32 ∨ (Rect.block (s := S200000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S200000x1.size a
  hwx0_2 : ∀ i : grid0.Coords, EltTy.bits .f32 = 32 ∨ (Rect.block (s := S200000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x5.size a ≤ S200000x5.size a
  hwx0_3 : ∀ i : grid0.Coords, EltTy.bits .f32 = 32 ∨ (Rect.block (s := S200000x5) S2000x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x640.size a ≤ S256x640.size a
  hwx0_4 : ∀ i : grid0.Coords, EltTy.bits .bf16 = 32 ∨ (Rect.block (s := S256x640) S256x640.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .f32 = 32 ∨ (Rect.block (s := S5x128) S5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S200000x128.size a
  hwx0_6 : ∀ i : grid0.Coords, EltTy.bits .f32 = 32 ∨ (Rect.block (s := S200000x128) S2000x128.size (cc0_transform_6 i) (hinb0_6 i)).WholeWords (EltTy.packing .f32)

variable [Facts₀]

def scatter_S200000_S625000x1_S625000_n_0_0_1 : ScatterDims S200000 S625000x1 S625000 where
  updateWindowDims := []
  insertedWindowDims := [0]
  scatterDimsToOperandDims := [0]
  indexVectorDim := 1
  wf := scatter_S200000_S625000x1_S625000_n_0_0_1_wf
def gather_S200000x128_S625000x1_S625000x128_1_0_n_n_0_1_1128 : GatherDims S200000x128 S625000x1 S625000x128 where
  offsetDims := [1]
  collapsedSliceDims := [0]
  operandBatchingDims := []
  startIndicesBatchingDims := []
  startIndexMap := [0]
  indexVectorDim := 1
  sliceSizes := ![1, 128]
  wf := gather_S200000x128_S625000x1_S625000x128_1_0_n_n_0_1_1128_wf
def scatter_S200000x128_S625000x1_S625000x128_1_0_0_1 : ScatterDims S200000x128 S625000x1 S625000x128 where
  updateWindowDims := [1]
  insertedWindowDims := [0]
  scatterDimsToOperandDims := [0]
  indexVectorDim := 1
  wf := scatter_S200000x128_S625000x1_S625000x128_1_0_0_1_wf
def dot_S2000x256_S256x640_S2000x640_1_0_0_1_n_n : DotDims S2000x256 S256x640 S2000x640 where
  lhsContracting := [1]
  rhsContracting := [0]
  lhsNonContracting := [0]
  rhsNonContracting := [1]
  lhsBatch := []
  rhsBatch := []
  wf := dot_S2000x256_S256x640_S2000x640_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S256x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x128 : Shape := ⟨2, ![200000, 128]⟩
abbrev S5x128x128 : Shape := ⟨3, ![5, 128, 128]⟩
abbrev S5x128 : Shape := ⟨2, ![5, 128]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S200000 : Shape := ⟨1, ![200000]⟩
abbrev S625000x1 : Shape := ⟨2, ![625000, 1]⟩
abbrev S625000x128 : Shape := ⟨2, ![625000, 128]⟩
abbrev S200000x1 : Shape := ⟨2, ![200000, 1]⟩
abbrev S5x128x200000 : Shape := ⟨3, ![5, 128, 200000]⟩
abbrev S5x200000x128 : Shape := ⟨3, ![5, 200000, 128]⟩
abbrev S5x1x128 : Shape := ⟨3, ![5, 1, 128]⟩
abbrev S200000x2 : Shape := ⟨2, ![200000, 2]⟩

abbrev nBuf : Space → Nat
  | .hbm => 70
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S5x128x128, .f32⟩
  | .hbm, ⟨2, _⟩ => ⟨S5x128, .f32⟩
  | .hbm, ⟨3, _⟩ => ⟨S5x128x128, .f32⟩
  | .hbm, ⟨4, _⟩ => ⟨S5x128, .f32⟩
  | .hbm, ⟨5, _⟩ => ⟨S2x625000, .i32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .f32⟩
  | .hbm, ⟨11, _⟩ => ⟨S625000, .f32⟩
  | .hbm, ⟨12, _⟩ => ⟨S_, .f32⟩
  | .hbm, ⟨13, _⟩ => ⟨S200000, .f32⟩
  | .hbm, ⟨14, _⟩ => ⟨S625000x1, .i32⟩
  | .hbm, ⟨15, _⟩ => ⟨S200000, .f32⟩
  | .hbm, ⟨16, _⟩ => ⟨S_, .i32⟩
  | .hbm, ⟨17, _⟩ => ⟨S625000, .i32⟩
  | .hbm, ⟨18, _⟩ => ⟨S625000, .i1⟩
  | .hbm, ⟨19, _⟩ => ⟨S_, .i32⟩
  | .hbm, ⟨20, _⟩ => ⟨S625000, .i32⟩
  | .hbm, ⟨21, _⟩ => ⟨S625000, .i32⟩
  | .hbm, ⟨22, _⟩ => ⟨S625000, .i32⟩
  | .hbm, ⟨23, _⟩ => ⟨S625000x1, .i32⟩
  | .hbm, ⟨24, _⟩ => ⟨S625000x128, .f32⟩
  | .hbm, ⟨25, _⟩ => ⟨S_, .f32⟩
  | .hbm, ⟨26, _⟩ => ⟨S200000x128, .f32⟩
  | .hbm, ⟨27, _⟩ => ⟨S625000x1, .i32⟩
  | .hbm, ⟨28, _⟩ => ⟨S200000x128, .f32⟩
  | .hbm, ⟨29, _⟩ => ⟨S_, .f32⟩
  | .hbm, ⟨30, _⟩ => ⟨S_, .f32⟩
  | .hbm, ⟨31, _⟩ => ⟨S200000, .f32⟩
  | .hbm, ⟨32, _⟩ => ⟨S200000, .f32⟩
  | .hbm, ⟨33, _⟩ => ⟨S200000x1, .f32⟩
  | .hbm, ⟨34, _⟩ => ⟨S200000x128, .f32⟩
  | .hbm, ⟨35, _⟩ => ⟨S200000x128, .f32⟩
  | .hbm, ⟨36, _⟩ => ⟨S200000, .i32⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S5x128x200000, .f32⟩
  | .hbm, ⟨41, _⟩ => ⟨S5x200000x128, .f32⟩
  | .hbm, ⟨42, _⟩ => ⟨S5x1x128, .f32⟩
  | .hbm, ⟨43, _⟩ => ⟨S5x200000x128, .f32⟩
  | .hbm, ⟨44, _⟩ => ⟨S5x200000x128, .f32⟩
  | .hbm, ⟨45, _⟩ => ⟨S5x128x200000, .f32⟩
  | .hbm, ⟨46, _⟩ => ⟨S5x200000x128, .f32⟩
  | .hbm, ⟨47, _⟩ => ⟨S5x200000x128, .f32⟩
  | .hbm, ⟨48, _⟩ => ⟨S5x1x128, .f32⟩
  | .hbm, ⟨49, _⟩ => ⟨S5x200000x128, .f32⟩
  | .hbm, ⟨50, _⟩ => ⟨S5x200000x128, .f32⟩
  | .hbm, ⟨51, _⟩ => ⟨S200000, .i32⟩
  | .hbm, ⟨52, _⟩ => ⟨S_, .i32⟩
  | .hbm, ⟨53, _⟩ => ⟨S200000, .i32⟩
  | .hbm, ⟨54, _⟩ => ⟨S200000, .i1⟩
  | .hbm, ⟨55, _⟩ => ⟨S_, .i32⟩
  | .hbm, ⟨56, _⟩ => ⟨S200000, .i32⟩
  | .hbm, ⟨57, _⟩ => ⟨S200000, .i32⟩
  | .hbm, ⟨58, _⟩ => ⟨S200000, .i32⟩
  | .hbm, ⟨59, _⟩ => ⟨S_, .i32⟩
  | .hbm, ⟨60, _⟩ => ⟨S200000, .i32⟩
  | .hbm, ⟨61, _⟩ => ⟨S200000, .i1⟩
  | .hbm, ⟨62, _⟩ => ⟨S_, .i32⟩
  | .hbm, ⟨63, _⟩ => ⟨S200000, .i32⟩
  | .hbm, ⟨64, _⟩ => ⟨S200000, .i32⟩
  | .hbm, ⟨65, _⟩ => ⟨S200000, .i32⟩
  | .hbm, ⟨66, _⟩ => ⟨S200000x1, .i32⟩
  | .hbm, ⟨67, _⟩ => ⟨S200000x1, .i32⟩
  | .hbm, ⟨68, _⟩ => ⟨S200000x2, .i32⟩
  | .hbm, ⟨69, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S200000 : S_.BroadcastsInDim S200000 (![] : Fin 0 → Fin S200000.rank)
  bcast_S625000_S625000x1_0 : S625000.BroadcastsInDim S625000x1 (![0] : Fin 1 → Fin S625000x1.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S5x128x200000_S5x200000x128_0_2_1 : S5x128x200000.Transposes [0, 2, 1] S5x200000x128
  bcast_S5x128_S5x1x128_0_2 : S5x128.BroadcastsInDim S5x1x128 (![0, 2] : Fin 2 → Fin S5x1x128.rank)
  bcast_S5x1x128_S5x200000x128_0_1_2 : S5x1x128.BroadcastsInDim S5x200000x128 (![0, 1, 2] : Fin 3 → Fin S5x200000x128.rank)
  concatenates_S200000x1_S200000x1_S200000x2_d1 : Shape.Concatenates [S200000x1, S200000x1] S200000x2 1
  scatter_S200000_S625000x1_S625000_n_0_0_1_wf : ScatterDims.WF S200000 S625000x1 S625000 [] [0] [0] 1
  gather_S200000x128_S625000x1_S625000x128_1_0_n_n_0_1_1128_wf : GatherDims.WF S200000x128 S625000x1 S625000x128 [1] [0] [] [0] [] 1 ![1, 128]
  scatter_S200000x128_S625000x1_S625000x128_1_0_0_1_wf : ScatterDims.WF S200000x128 S625000x1 S625000x128 [1] [0] [0] 1
  dot_S5x128x128_S200000x128_S5x128x200000_2_1_01_0_n_n_wf : DotDims.WF S5x128x128 S200000x128 S5x128x200000 [2] [1] [0, 1] [0] [] []
  gather_S5x200000x128_S200000x2_S200000x128_1_01_n_n_01_1_11128_wf : GatherDims.WF S5x200000x128 S200000x2 S200000x128 [1] [0, 1] [] [0, 1] [] 1 ![1, 1, 128]

variable [Facts₀]

def scatter_S200000_S625000x1_S625000_n_0_0_1 : ScatterDims S200000 S625000x1 S625000 where
  updateWindowDims := []
  insertedWindowDims := [0]
  scatterDimsToOperandDims := [0]
  indexVectorDim := 1
  wf := scatter_S200000_S625000x1_S625000_n_0_0_1_wf
def gather_S200000x128_S625000x1_S625000x128_1_0_n_n_0_1_1128 : GatherDims S200000x128 S625000x1 S625000x128 where
  offsetDims := [1]
  collapsedSliceDims := [0]
  operandBatchingDims := []
  startIndicesBatchingDims := []
  startIndexMap := [0]
  indexVectorDim := 1
  sliceSizes := ![1, 128]
  wf := gather_S200000x128_S625000x1_S625000x128_1_0_n_n_0_1_1128_wf
def scatter_S200000x128_S625000x1_S625000x128_1_0_0_1 : ScatterDims S200000x128 S625000x1 S625000x128 where
  updateWindowDims := [1]
  insertedWindowDims := [0]
  scatterDimsToOperandDims := [0]
  indexVectorDim := 1
  wf := scatter_S200000x128_S625000x1_S625000x128_1_0_0_1_wf
def dot_S5x128x128_S200000x128_S5x128x200000_2_1_01_0_n_n : DotDims S5x128x128 S200000x128 S5x128x200000 where
  lhsContracting := [2]
  rhsContracting := [1]
  lhsNonContracting := [0, 1]
  rhsNonContracting := [0]
  lhsBatch := []
  rhsBatch := []
  wf := dot_S5x128x128_S200000x128_S5x128x200000_2_1_01_0_n_n_wf
def gather_S5x200000x128_S200000x2_S200000x128_1_01_n_n_01_1_11128 : GatherDims S5x200000x128 S200000x2 S200000x128 where
  offsetDims := [1]
  collapsedSliceDims := [0, 1]
  operandBatchingDims := []
  startIndicesBatchingDims := []
  startIndexMap := [0, 1]
  indexVectorDim := 1
  sliceSizes := ![1, 1, 128]
  wf := gather_S5x200000x128_S200000x2_S200000x128_1_01_n_n_01_1_11128_wf

class Facts : Prop extends Facts₀ where

variable [Facts]
-- ==== Proof.LibScatterCount.lean ====
/-
  Counting with a scatter.

  Scattering a constant one, with addition, into an operand counts, at each operand index i, the update indices that land at
  i. This is so for the left fold over the update indices with the wrapping integer addition (the count then read modulo the
  word size) and for the accumulating float scatter at the ideal instance (the count then read as a real). Both counts are of
  one and the same set, for ANY dimension-number record and any index array: where an update lands is used only as an opaque
  function of the update index. A count below 2^31 passes exactly through the signed conversions between a 32-bit word and a
  float, so the two scatters agree after either conversion.
-/
import Idealize.ShloMosaic.PureOps.Ideal
import Idealize.ShloMosaic.PureOps.Contract

noncomputable section

open scoped BigOperators

namespace ScatterCount

open Idealize.ShloMosaic

/-! ## The count -/

/-- The number of update indices that land at operand index i. -/
def count {s si u : Shape} (d : ScatterDims s si u) {w : Nat} (idx : IVec si w) (i : s.Idx) : Nat :=
  (Finset.univ.filter (fun j : u.Idx => d.resultIdx? j idx = some i)).card

/-- The count, unfolded. -/
theorem count_def {s si u : Shape} (d : ScatterDims s si u) {w : Nat} (idx : IVec si w) (i : s.Idx) :
    count d idx i = (Finset.univ.filter (fun j : u.Idx => d.resultIdx? j idx = some i)).card := rfl

/-- No more updates land at an index than there are updates. -/
theorem count_le_numel {s si u : Shape} (d : ScatterDims s si u) {w : Nat} (idx : IVec si w) (i : s.Idx) :
    count d idx i ≤ u.numel :=
  (Finset.card_le_univ _).trans_eq u.card_idx

/-! ## The integer fold counts -/

/-- The fold of the scatter's step over ANY list of update positions, the update a constant one and the body the wrapping
    addition, read at i: the start value at i plus the number of listed positions that land at i. -/
private theorem foldl_count {s si u : Shape} (d : ScatterDims s si u) {w m : Nat} (idx : IVec si w) (i : s.Idx)
    (l : List (Fin u.numel)) (x : s.Idx → BitVec m) :
    l.foldl (fun r n =>
        match d.resultIdx? (u.rowMajor.symm n) idx with
        | some k => fun i' => if i' = k then IntOp.addi (r k) 1#m else r i'
        | none => r) x i
      = x i + BitVec.ofNat m (l.countP fun n => decide (d.resultIdx? (u.rowMajor.symm n) idx = some i)) := by
  induction l generalizing x with
  | nil => simp
  | cons n l ih =>
    rw [List.foldl_cons, ih, List.countP_cons]
    cases hk : d.resultIdx? (u.rowMajor.symm n) idx with
    | none =>
      simp only [reduceCtorEq, decide_false, Bool.false_eq_true, if_false, Nat.add_zero]
    | some k =>
      by_cases hik : i = k
      · subst hik
        simp only [if_true, decide_true, IntOp.addi, BitVec.ofNat_add]
        ac_rfl
      · have hki : ¬ (some k = some i) := fun h => hik (Option.some.inj h).symm
        simp only [if_neg hik, hki, decide_false, Bool.false_eq_true, if_false, Nat.add_zero]

/-- Over all the positions in order, the number of those that land at i is the count. -/
private theorem countP_finRange {s si u : Shape} (d : ScatterDims s si u) {w : Nat} (idx : IVec si w) (i : s.Idx) :
    (List.finRange u.numel).countP (fun n => decide (d.resultIdx? (u.rowMajor.symm n) idx = some i))
      = count d idx i := by
  unfold count
  rw [List.countP_eq_length_filter, ← List.toFinset_card_of_nodup ((List.nodup_finRange _).filter _),
    List.toFinset_filter, List.toFinset_finRange]
  refine Finset.card_equiv u.rowMajor.symm fun n => ?_
  simp only [Finset.mem_filter, Finset.mem_univ, true_and, decide_eq_true_eq]

/-- Scattering a constant one with the wrapping integer addition: the operand at i plus the count, as a word. -/
theorem scatter_addi_one {s si u : Shape} (d : ScatterDims s si u) {w m : Nat} (x : s.Idx → BitVec m) (idx : IVec si w)
    (i : s.Idx) :
    Host.scatter d IntOp.addi x idx (fun _ => 1#m) i = x i + BitVec.ofNat m (count d idx i) := by
  rw [← countP_finRange]
  exact foldl_count d idx i _ x

/-! ## The float scatter counts -/

/-- A sum of ones over a finite set is its number of elements, as an extended real. -/
private theorem sum_one_eq_card {ι : Type} (A : Finset ι) : (∑ _j ∈ A, (1 : EReal)) = (((A.card : ℕ) : ℝ) : EReal) := by
  rw [Finset.sum_const, ← EReal.coe_one, ← EReal.coe_nsmul, nsmul_eq_mul, mul_one]

/-- The accumulating scatter of a constant one at the ideal instance: the operand at i plus the count, as a real. -/
theorem scatterAdd_one {s si u : Shape} {φ : FTy} (d : ScatterDims s si u) {w : Nat} (x : FVec Ideal s φ)
    (idx : IVec si w) (i : s.Idx) :
    Host.scatterAdd d x idx (fun _ => (1 : EReal)) i = x i + (((count d idx i : ℕ) : ℝ) : EReal) := by
  show Ideal.hostScatterAdd d x idx (fun _ => (1 : EReal)) i = _
  unfold Ideal.hostScatterAdd count
  rw [sum_one_eq_card]

/-! ## A small count passes exactly through the signed conversions -/

/-- A natural number below 2^31, as a 32-bit word, reads back signed as itself. -/
theorem toInt_ofNat_of_lt (c : ℕ) (hc : c < 2 ^ 31) : (BitVec.ofNat 32 c).toInt = (c : Int) := by
  have hn : (BitVec.ofNat 32 c).toNat = c := by
    rw [BitVec.toNat_ofNat]
    omega
  rw [BitVec.toInt_eq_toNat_of_lt (by rw [hn]; omega), hn]

/-- The signed conversion of a small count to a float is the count. -/
theorem sitofp_ofNat_of_lt {φ : FTy} (c : ℕ) (hc : c < 2 ^ 31) :
    Scalar.sitofp (F := Ideal) φ (BitVec.ofNat 32 c) = ((c : ℝ) : EReal) := by
  rw [Ideal.scalar_sitofp_def, toInt_ofNat_of_lt c hc, Int.cast_natCast]

/-- The signed conversion of a small count, as a real, to a 32-bit word is the count: a natural number is its own
    truncation, and the clamp to the signed range is inactive. -/
theorem fptosi_natCast_of_lt (c : ℕ) (hc : c < 2 ^ 31) : Ideal.fptosi 32 ((c : ℝ) : EReal) = BitVec.ofNat 32 c := by
  unfold Ideal.fptosi
  rw [Ideal.toIntClamped_coe, if_pos (Nat.cast_nonneg c), Int.floor_natCast]
  have h1 : ((2 ^ (32 - 1) : ℕ) : Int) = 2147483648 := by norm_num
  rw [h1, min_eq_right (by omega), max_eq_right (by omega), BitVec.ofInt_natCast]

/-! ## The two scatters of ones agree -/

/-- The integer scatter of ones into zeros, converted to a float, is the count. -/
theorem sitofp_scatter_addi_one {s si u : Shape} {φ : FTy} (d : ScatterDims s si u) {w : Nat} (idx : IVec si w)
    (i : s.Idx) (hu : u.numel < 2 ^ 31) :
    Scalar.sitofp (F := Ideal) φ (Host.scatter d IntOp.addi (fun _ => 0#32) idx (fun _ => 1#32) i)
      = (((count d idx i : ℕ) : ℝ) : EReal) := by
  rw [scatter_addi_one, BitVec.zero_add]
  exact sitofp_ofNat_of_lt _ (lt_of_le_of_lt (count_le_numel d idx i) hu)

/-- The float scatter of ones into zeros is the count. -/
theorem scatterAdd_zero_one {s si u : Shape} {φ : FTy} (d : ScatterDims s si u) {w : Nat} (idx : IVec si w)
    (i : s.Idx) :
    Host.scatterAdd (F := Ideal) (φ := φ) d (fun _ => (0 : EReal)) idx (fun _ => (1 : EReal)) i
      = (((count d idx i : ℕ) : ℝ) : EReal) := by
  rw [scatterAdd_one, zero_add]

/-- The float scatter of ones into zeros, converted to a 32-bit word, is the integer scatter of ones into zeros. -/
theorem fptosi_scatterAdd_zero_one {s si u : Shape} {φ : FTy} (d : ScatterDims s si u) {w : Nat} (idx : IVec si w)
    (i : s.Idx) (hu : u.numel < 2 ^ 31) :
    Ideal.fptosi 32 (Host.scatterAdd (F := Ideal) (φ := φ) d (fun _ => (0 : EReal)) idx (fun _ => (1 : EReal)) i)
      = Host.scatter d IntOp.addi (fun _ => 0#32) idx (fun _ => 1#32) i := by
  rw [scatterAdd_zero_one, scatter_addi_one, BitVec.zero_add]
  exact fptosi_natCast_of_lt _ (lt_of_le_of_lt (count_le_numel d idx i) hu)

end ScatterCount

end
-- ==== Proof.LibMeanLayer.lean ====
/-
  One mean-aggregation graph layer, entry by entry on the extended reals, in the two arrangements the two
  programs use, and the law that joins them.

  A layer takes, per node p, the SUM agg(p,·) of its in-neighbours' feature rows, the node's in-degree c(p), its own
  feature row h(p,·), two weight matrices and a bias, and returns

      max( Σ_k mean(p,k)·W_l(q,k) + b(q) + Σ_k h(p,k)·W_r(q,k) , 0 ),      mean(p,k) = agg(p,k) / max(c(p),1).

  One program divides the sum by the clamped degree; the other multiplies it by the reciprocal 1 / max(c(p),1), uses
  the weights already transposed, and adds the bias last. The clamped degree is at least 1, so it is never zero, and
  for a nonzero divisor d both a / d and a·(1/d) are a·d⁻¹ — whatever a is, infinite values included. Sums of three terms
  in two orders agree because addition of extended reals is commutative and associative. No finiteness is used.
-/
import Idealize.ShloMosaic.PureOps.Ideal
import Idealize.ShloMosaic.Lib.ValueIdx

noncomputable section

namespace MeanLayer

open Idealize.ShloMosaic Idealize.ShloMosaic.ValueIdx

/-- The f32 word of 1.0 denotes the number 1. -/
theorem one_f32 : Ideal.ofBits .f32 0x3F800000#32 = 1 := by
  simp [Ideal.ofBits, Ideal.ieee, -EReal.coe_mul]; norm_num

/-- A degree clamped below by 1 is positive, so it is not zero. -/
theorem clamp_ne_zero (c : EReal) : max c 1 ≠ 0 :=
  ne_of_gt (lt_of_lt_of_le zero_lt_one (le_max_right c 1))

/-- Multiplying by the reciprocal of a clamped degree is dividing by it, for EVERY extended real `a`: both sides are
    `a · (max c 1)⁻¹`, the divisor not being zero. -/
theorem mul_recip_clamp (a c : EReal) : a * Ideal.div 1 (max c 1) = Ideal.div a (max c 1) := by
  rw [Ideal.div, Ideal.div, if_neg (clamp_ne_zero c), if_neg (clamp_ne_zero c), one_mul]

/-- The same with the two ones spelt as the f32 word of 1.0. -/
theorem mul_recip_clamp_word (a c : EReal) :
    a * Ideal.div (Ideal.ofBits .f32 0x3F800000#32) (max c (Ideal.ofBits .f32 0x3F800000#32))
      = Ideal.div a (max c (Ideal.ofBits .f32 0x3F800000#32)) := by
  rw [one_f32]; exact mul_recip_clamp a c

/-- A matrix of extended reals over the index type of an `[a, b]` array, and a vector over that of an `[a]` array. -/
abbrev Mat (a b : ℕ) := (⟨2, ![a, b]⟩ : Shape).Idx → EReal
abbrev Row (a : ℕ) := (⟨1, ![a]⟩ : Shape).Idx → EReal

/-- Hidden unit (p, q) of one layer in the arrangement that multiplies by a reciprocal degree column `inv`, contracts
    against weights stored input-feature-major (`wl (k, q)`), adds the self term second and the bias last, and
    rectifies against the f32 zero word. -/
def hidden {n d e : ℕ} (agg : Mat n d) (inv : Mat n 1) (h : Mat n d) (wl wr : Mat d e) (b : Row e)
    (p : Fin n) (q : Fin e) : EReal :=
  max ((∑ k : Fin d, (agg (ix2 p k) * inv (ix2 p (0 : Fin 1))) * wl (ix2 k q))
        + (∑ k : Fin d, h (ix2 p k) * wr (ix2 k q)) + b (ix1 q))
      (Ideal.ofBits .f32 0x00000000#32)

/-- The layer as a whole array: entry `i` is hidden unit `(i 0, i 1)`. -/
def layer {n d e : ℕ} (agg : Mat n d) (inv : Mat n 1) (h : Mat n d) (wl wr : Mat d e) (b : Row e) : Mat n e :=
  fun i => hidden agg inv h wl wr b (i 0) (i 1)

theorem layer_apply {n d e : ℕ} (agg : Mat n d) (inv : Mat n 1) (h : Mat n d) (wl wr : Mat d e) (b : Row e)
    (p : Fin n) (q : Fin e) : layer agg inv h wl wr b (ix2 p q) = hidden agg inv h wl wr b p q := rfl

/-- Output unit (p, r) of the last stage: a second layer's hidden row contracted against the read-out weights
    (stored hidden-feature-major, `fw (j, r)`) plus the read-out bias. -/
def readout {n d e o : ℕ} (agg : Mat n d) (inv : Mat n 1) (h : Mat n d) (wl wr : Mat d e) (b : Row e)
    (fw : Mat e o) (fb : Row o) (p : Fin n) (r : Fin o) : EReal :=
  (∑ j : Fin e, hidden agg inv h wl wr b p j * fw (ix2 j r)) + fb (ix1 r)

/-- The last stage as a whole array. -/
def head {n d e o : ℕ} (agg : Mat n d) (inv : Mat n 1) (h : Mat n d) (wl wr : Mat d e) (b : Row e)
    (fw : Mat e o) (fb : Row o) : Mat n o :=
  fun i => readout agg inv h wl wr b fw fb (i 0) (i 1)

theorem head_apply {n d e o : ℕ} (agg : Mat n d) (inv : Mat n 1) (h : Mat n d) (wl wr : Mat d e) (b : Row e)
    (fw : Mat e o) (fb : Row o) (p : Fin n) (r : Fin o) :
    head agg inv h wl wr b fw fb (ix2 p r) = readout agg inv h wl wr b fw fb p r := rfl

/-- The joining law at one hidden unit: with the reciprocal column `1 / max(c p, 1)` and transposed weights, the
    reciprocal arrangement equals the dividing one (division first, bias second, self term last). -/
theorem hidden_eq_divided {n d e : ℕ} (agg : Mat n d) (c : Fin n → EReal) (inv : Mat n 1) (h : Mat n d)
    (wl wr : Mat d e) (Wl Wr : Mat e d) (b : Row e)
    (hinv : ∀ p, inv (ix2 p (0 : Fin 1))
      = Ideal.div (Ideal.ofBits .f32 0x3F800000#32) (max (c p) (Ideal.ofBits .f32 0x3F800000#32)))
    (hwl : ∀ k q, wl (ix2 k q) = Wl (ix2 q k)) (hwr : ∀ k q, wr (ix2 k q) = Wr (ix2 q k))
    (p : Fin n) (q : Fin e) :
    hidden agg inv h wl wr b p q
      = max ((∑ k : Fin d, Ideal.div (agg (ix2 p k)) (max (c p) (Ideal.ofBits .f32 0x3F800000#32)) * Wl (ix2 q k))
              + b (ix1 q) + (∑ k : Fin d, h (ix2 p k) * Wr (ix2 q k)))
            (Ideal.ofBits .f32 0x00000000#32) := by
  unfold hidden
  congr 1
  rw [add_right_comm]
  congr 1
  · congr 1
    refine Finset.sum_congr rfl fun k _ => ?_
    rw [hinv p, mul_recip_clamp_word, hwl]
  · refine Finset.sum_congr rfl fun k _ => ?_
    rw [hwr]

end MeanLayer

end
-- ==== Proof.Spec.lean ====
/-
  The degree-bucketed linear combine of a mean-aggregating graph layer, entry by entry on the extended reals, in the two
  arrangements the two programs use, and the law that joins them.

  Node n has c in-neighbours; ns(n,·) is the SUM of their feature rows and x(n,·) its own row. The layer keeps five pairs of
  linear maps (nw_b, nb_b), (rw_b, rb_b), b = 0..4, and applies to node n the pair of its bucket b = min(c, 4):

      out(n,o) = ((Σ_d nw_b(o,d) · (ns(n,d) / max(1,c)) + nb_b(o)) + Σ_d rw_b(o,d) · x(n,d)) + rb_b(o).            (reference)

  The other program multiplies ns by the reciprocal 1 / max(1,c), evaluates ALL five buckets
      t_b(n,o) = (Σ_d (ns(n,d) · inv) · nw_b(o,d) + Σ_d x(n,d) · rw_b(o,d)) + (nb_b(o) + rb_b(o))
  and sums them against a one-hot row: 0 + m_0·t_0 + m_1·t_1 + m_2·t_2 + m_3·t_3 + m_4·t_4, m_b = 1 if b is the bucket, else 0.

  They agree on every extended real: 0·t = 0 and 1·t = t whatever t is, so the masked sum is t_b; the clamped degree is at
  least 1, hence not zero, so a·(1/D) = a/D for every a; the rest is commutativity and associativity of + and ·. No finiteness
  of any entry is used.
-/
import Idealize.ShloMosaic.PureOps.Ideal
import Idealize.ShloMosaic.Lib.ValueIdx
import proofs.«149878_j936302871077_2_alg».proof.Proof.LibMeanLayer

noncomputable section

namespace Combine

open Idealize.ShloMosaic Idealize.ShloMosaic.ValueIdx

/-- Node features [200000, 128], the stacked weights [5, 128, 128] (bucket, output, input) and biases [5, 128]. -/
abbrev Feat := (⟨2, ![200000, 128]⟩ : Shape).Idx → EReal
abbrev Wts := (⟨3, ![5, 128, 128]⟩ : Shape).Idx → EReal
abbrev Bias := (⟨2, ![5, 128]⟩ : Shape).Idx → EReal

/-- The bucket of a node with c in-neighbours: min(c, 4). -/
def bucket (c : ℕ) : Fin 5 := ⟨min c 4, by omega⟩

/-- The in-degree clamped below by 1, as an extended real. -/
def clampDeg (c : ℕ) : EReal := max 1 ((c : ℝ) : EReal)

theorem clampDeg_ne_zero (c : ℕ) : clampDeg c ≠ 0 :=
  ne_of_gt (lt_of_lt_of_le zero_lt_one (le_max_left 1 _))

/-- Multiplying by the reciprocal of the clamped degree is dividing by it, for every extended real a. -/
theorem mul_recip (a : EReal) (c : ℕ) : a * Ideal.div 1 (clampDeg c) = Ideal.div a (clampDeg c) := by
  rw [Ideal.div, Ideal.div, if_neg (clampDeg_ne_zero c), if_neg (clampDeg_ne_zero c), one_mul]

/-- Entry (n, o) in the reference's arrangement, for a node with c in-neighbours. -/
def refEntry (x ns : Feat) (nw rw : Wts) (nb rb : Bias) (c : ℕ) (n : Fin 200000) (o : Fin 128) : EReal :=
  (((∑ d : Fin 128, nw (ix3 (bucket c) o d) * Ideal.div (ns (ix2 n d)) (clampDeg c)) + nb (ix2 (bucket c) o))
      + ∑ d : Fin 128, rw (ix3 (bucket c) o d) * x (ix2 n d))
    + rb (ix2 (bucket c) o)

/-- The layer as a whole array, given every node's in-degree. -/
def G (x ns : Feat) (nw rw : Wts) (nb rb : Bias) (cnt : Fin 200000 → ℕ) : Feat :=
  fun i => refEntry x ns nw rw nb rb (cnt (i 0)) (i 0) (i 1)

theorem G_apply (x ns : Feat) (nw rw : Wts) (nb rb : Bias) (cnt : Fin 200000 → ℕ) (n : Fin 200000) (o : Fin 128) :
    G x ns nw rw nb rb cnt (ix2 n o) = refEntry x ns nw rw nb rb (cnt n) n o := rfl

/-- Bucket b's term at (n, o) in the other arrangement, inv the reciprocal degree of node n. -/
def kerTerm (x ns : Feat) (nw rw : Wts) (nb rb : Bias) (inv : EReal) (n : Fin 200000) (o : Fin 128) (b : Fin 5) : EReal :=
  ((∑ d : Fin 128, (ns (ix2 n d) * inv) * nw (ix3 b o d)) + ∑ d : Fin 128, x (ix2 n d) * rw (ix3 b o d))
    + (nb (ix2 b o) + rb (ix2 b o))

/-- A sum of five terms against a one-hot row is the selected term: 0·t = 0 and 1·t = t on the extended reals. -/
theorem onehot_sum (f : Fin 5 → EReal) (B : Fin 5) :
    ((((0 + (if B = 0 then (1 : EReal) else 0) * f 0) + (if B = 1 then (1 : EReal) else 0) * f 1)
        + (if B = 2 then (1 : EReal) else 0) * f 2) + (if B = 3 then (1 : EReal) else 0) * f 3)
      + (if B = 4 then (1 : EReal) else 0) * f 4 = f B := by
  fin_cases B <;> simp

/-- The selected bucket's term, with the reciprocal of the clamped degree, is the reference's entry. -/
theorem kerTerm_eq_refEntry (x ns : Feat) (nw rw : Wts) (nb rb : Bias) (c : ℕ) (n : Fin 200000) (o : Fin 128) :
    kerTerm x ns nw rw nb rb (Ideal.div 1 (clampDeg c)) n o (bucket c) = refEntry x ns nw rw nb rb c n o := by
  unfold kerTerm refEntry
  have h1 : (∑ d : Fin 128, (ns (ix2 n d) * Ideal.div 1 (clampDeg c)) * nw (ix3 (bucket c) o d))
      = ∑ d : Fin 128, nw (ix3 (bucket c) o d) * Ideal.div (ns (ix2 n d)) (clampDeg c) :=
    Finset.sum_congr rfl fun d _ => by rw [mul_recip, mul_comm]
  have h2 : (∑ d : Fin 128, x (ix2 n d) * rw (ix3 (bucket c) o d))
      = ∑ d : Fin 128, rw (ix3 (bucket c) o d) * x (ix2 n d) :=
    Finset.sum_congr rfl fun d _ => mul_comm _ _
  rw [h1, h2, add_add_add_comm, ← add_assoc]

/-- The masked sum over the five buckets, against the one-hot row of the node's bucket, is the reference's entry. -/
theorem masked_eq_refEntry (x ns : Feat) (nw rw : Wts) (nb rb : Bias) (c : ℕ) (n : Fin 200000) (o : Fin 128) :
    ((((0 + (if bucket c = 0 then (1 : EReal) else 0) * kerTerm x ns nw rw nb rb (Ideal.div 1 (clampDeg c)) n o 0)
          + (if bucket c = 1 then (1 : EReal) else 0) * kerTerm x ns nw rw nb rb (Ideal.div 1 (clampDeg c)) n o 1)
        + (if bucket c = 2 then (1 : EReal) else 0) * kerTerm x ns nw rw nb rb (Ideal.div 1 (clampDeg c)) n o 2)
        + (if bucket c = 3 then (1 : EReal) else 0) * kerTerm x ns nw rw nb rb (Ideal.div 1 (clampDeg c)) n o 3)
      + (if bucket c = 4 then (1 : EReal) else 0) * kerTerm x ns nw rw nb rb (Ideal.div 1 (clampDeg c)) n o 4
      = refEntry x ns nw rw nb rb c n o :=
  (onehot_sum (kerTerm x ns nw rw nb rb (Ideal.div 1 (clampDeg c)) n o) (bucket c)).trans
    (kerTerm_eq_refEntry x ns nw rw nb rb c n o)

end Combine

end
-- ==== Proof.Shared.lean ====
/-
  What the two programs share, named once: the neighbour sums, every node's in-degree, and the layer's result as one
  function of the argument arrays.

  Both programs build the neighbour sums ns(n,·) = Σ over edges e with target n of x(source e,·) by the same two host
  operations (a row gather at the source indices, an accumulating scatter onto the target indices), so the term is kept
  whole and never opened. The in-degree of node n is the number of edges the scatter lands on n: the number of update
  positions whose result index is n. The result is the bucketed combine G of the argument arrays, the neighbour sums and
  the in-degrees.
-/
import proofs.«149878_j936302871077_2_alg».proof.Proof.RefReadPatched
import proofs.«149878_j936302871077_2_alg».proof.Proof.LibScatterCount
import proofs.«149878_j936302871077_2_alg».proof.Proof.Spec

noncomputable section

namespace Cert.Shared

open Cert.ReferenceIdeal Cert.ReferenceIdeal.Gen Cert.ReferenceIdeal.ReadP
open Idealize.ShloMosaic Idealize.ShloMosaic.ValueIdx

/-- The neighbour sums, as the reference's operations compute them from the features and the edge list. -/
def NS (x0 : (⟨S200000x128, .f32⟩ : BufTy).Contents (Elt Ideal)) (x5 : (⟨S2x625000, .i32⟩ : BufTy).Contents (Elt Ideal)) :
    Combine.Feat :=
  val_main_v17 (F := Ideal) x0 x5

/-- The in-degree of node n: the number of edges whose target index lands on n. -/
def cnt (x5 : (⟨S2x625000, .i32⟩ : BufTy).Contents (Elt Ideal)) (n : Fin 200000) : ℕ :=
  ScatterCount.count scatter_S200000_S625000x1_S625000_n_0_0_1 (val_main_v6 (F := Ideal) x5) (ix1 n)

/-- There are 625000 edges, so an in-degree fits a signed 32-bit word with room to spare. -/
theorem cnt_lt (x5 : (⟨S2x625000, .i32⟩ : BufTy).Contents (Elt Ideal)) (n : Fin 200000) : cnt x5 n < 2 ^ 31 :=
  lt_of_le_of_lt (ScatterCount.count_le_numel _ _ _) (by decide)

/-- The layer's result as one function of the argument arrays (features, neighbour weights and biases, self weights and
    biases, edge list), index by index. -/
def result (x0 : (⟨S200000x128, .f32⟩ : BufTy).Contents (Elt Ideal)) (x1 : (⟨S5x128x128, .f32⟩ : BufTy).Contents (Elt Ideal))
    (x2 : (⟨S5x128, .f32⟩ : BufTy).Contents (Elt Ideal)) (x3 : (⟨S5x128x128, .f32⟩ : BufTy).Contents (Elt Ideal))
    (x4 : (⟨S5x128, .f32⟩ : BufTy).Contents (Elt Ideal)) (x5 : (⟨S2x625000, .i32⟩ : BufTy).Contents (Elt Ideal)) :
    Combine.Feat :=
  Combine.G x0 (NS x0 x5) x1 x3 x2 x4 (cnt x5)

end Cert.Shared

end
-- ==== Proof.LibPairGather.lean ====
/-
  The host's gather of a rank-3 stack at pairs of start indices, read at an index.

  A stack x : [A, B, C] is gathered at a two-column array idx : [N, 2] of start indices, column 0 naming a position on axis 0
  and column 1 a position on axis 1 (what x[i, j] with two index vectors i, j : [N] lowers to): axes 0 and 1 are collapsed
  and named by the start index map, axis 2 is kept whole, and result element (n, o) is x at (idx[n, 0], idx[n, 1], o), each
  start index read as a signed integer and clamped into its axis. The lemmas hold for ANY dimension-number record of the
  right type whose lists are the ones this lowering prints; the hypotheses on the record's fields are closed by rfl on a
  printed record.
-/
import Idealize.ShloMosaic.PureOps.Ideal
import Idealize.ShloMosaic.Lib.ValueIdx

noncomputable section

namespace PairGather

open Idealize.ShloMosaic Idealize.ShloMosaic.ValueIdx

/-- Of a rank-3 shape's three axes, the one that is neither axis 0 nor axis 1 is axis 2. -/
private theorem kept3_01 :
    (List.finRange 3).filter (fun a : Fin 3 => decide (a ∉ ([0, 1] ++ [] : List (Fin 3)))) = ([2] : List (Fin 3)) := by
  decide

/-- Axis 0 is one of the axes 0 and 1. -/
private theorem mem0_01 : (0 : Fin 3) ∈ ([0, 1] : List (Fin 3)) := by decide

/-- Axis 1 is one of the axes 0 and 1. -/
private theorem mem1_01 : (1 : Fin 3) ∈ ([0, 1] : List (Fin 3)) := by decide

/-- Axis 2 is neither axis 0 nor axis 1. -/
private theorem not_mem2_01 : (2 : Fin 3) ∉ ([0, 1] : List (Fin 3)) := by decide

/-- A rank-3 shape's axis is axis 0, axis 1 or axis 2. -/
private theorem fin3_cases (a : Fin 3) : a = 0 ∨ a = 1 ∨ a = 2 := by
  rcases a with ⟨v, hv⟩
  rcases (by omega : v = 0 ∨ v = 1 ∨ v = 2) with rfl | rfl | rfl
  · exact Or.inl rfl
  · exact Or.inr (Or.inl rfl)
  · exact Or.inr (Or.inr rfl)

/-- The gather's dimension numbers for an operand [A, B, C], start indices [N, 2] and result [N, C], as an explicit record. -/
private abbrev gDims3 (A B C N : Nat) (sb : List (Fin (Shape.rank ⟨2, ![N, 2]⟩)))
    (wf : GatherDims.WF ⟨3, ![A, B, C]⟩ ⟨2, ![N, 2]⟩ ⟨2, ![N, C]⟩ [1] [0, 1] [] [0, 1] sb 1 ![1, 1, C]) :
    GatherDims ⟨3, ![A, B, C]⟩ ⟨2, ![N, 2]⟩ ⟨2, ![N, C]⟩ where
  offsetDims := [1]
  collapsedSliceDims := [0, 1]
  operandBatchingDims := []
  startIndicesBatchingDims := sb
  startIndexMap := [0, 1]
  indexVectorDim := 1
  sliceSizes := ![1, 1, C]
  wf := wf

/-- The pair gather at the explicit record. -/
private theorem gather3_core {α : Type} {A B C N w : Nat} (hA : 0 < A) (hB : 0 < B)
    (sb : List (Fin (Shape.rank ⟨2, ![N, 2]⟩)))
    (wf : GatherDims.WF ⟨3, ![A, B, C]⟩ ⟨2, ![N, 2]⟩ ⟨2, ![N, C]⟩ [1] [0, 1] [] [0, 1] sb 1 ![1, 1, C])
    (x : (⟨3, ![A, B, C]⟩ : Shape).Idx → α) (idx : IVec ⟨2, ![N, 2]⟩ w) (n : Fin N) (o : Fin C) :
    Host.gather (gDims3 A B C N sb wf) x idx (ix2 n o)
      = x (ix3 ⟨min (idx (ix2 n 0)).toInt.toNat (A - 1), by omega⟩
          ⟨min (idx (ix2 n 1)).toInt.toNat (B - 1), by omega⟩ o) := by
  unfold Host.gather
  congr 1
  funext a
  refine Fin.ext ?_
  show (gDims3 A B C N sb wf).start (ix2 n o) idx a + (gDims3 A B C N sb wf).batchCoord (ix2 n o) a
    + (gDims3 A B C N sb wf).offCoord (ix2 n o) a = _
  rw [GatherDims.batchCoord_eq_zero _ _ _ List.not_mem_nil]
  rcases fin3_cases a with rfl | rfl | rfl
  · -- axis 0: collapsed, its start is component 0 of the index vector
    have hm : (0 : Fin 3) ∈ (gDims3 A B C N sb wf).startIndexMap := mem0_01
    have hc : (0 : Fin 3) ∈ (gDims3 A B C N sb wf).collapsedSliceDims := mem0_01
    rw [GatherDims.offCoord_eq_zero _ _ _ (fun h => ((GatherDims.mem_sKept _ _).mp h).1 hc)]
    simp only [Nat.add_zero]
    unfold GatherDims.start
    rw [dif_pos hm]
    have hsi : (gDims3 A B C N sb wf).siIdx (ix2 n o) ⟨List.idxOf (0 : Fin 3) (gDims3 A B C N sb wf).startIndexMap,
        List.idxOf_lt_length_iff.2 hm⟩ = ix2 n 0 := by
      funext b; refine Fin.ext ?_
      match b with
      | ⟨0, _⟩ => rfl
      | ⟨1, _⟩ => rfl
    rw [hsi]
    rfl
  · -- axis 1: collapsed, its start is component 1 of the index vector
    have hm : (1 : Fin 3) ∈ (gDims3 A B C N sb wf).startIndexMap := mem1_01
    have hc : (1 : Fin 3) ∈ (gDims3 A B C N sb wf).collapsedSliceDims := mem1_01
    rw [GatherDims.offCoord_eq_zero _ _ _ (fun h => ((GatherDims.mem_sKept _ _).mp h).1 hc)]
    simp only [Nat.add_zero]
    unfold GatherDims.start
    rw [dif_pos hm]
    have hsi : (gDims3 A B C N sb wf).siIdx (ix2 n o) ⟨List.idxOf (1 : Fin 3) (gDims3 A B C N sb wf).startIndexMap,
        List.idxOf_lt_length_iff.2 hm⟩ = ix2 n 1 := by
      funext b; refine Fin.ext ?_
      match b with
      | ⟨0, _⟩ => rfl
      | ⟨1, _⟩ => rfl
    rw [hsi]
    rfl
  · -- axis 2: kept whole, its start is 0 and its offset the result's coordinate on the offset axis
    have h2 : (2 : Fin 3) ∉ (gDims3 A B C N sb wf).startIndexMap := not_mem2_01
    have hk : (gDims3 A B C N sb wf).sKept = [2] := by
      exact kept3_01
    have hget : ∀ (k : Nat) (hk : k < 1), ([1] : List (Fin 2))[k] = 1 := by
      intro k hk; obtain rfl : k = 0 := by omega
      rfl
    unfold GatherDims.start GatherDims.offCoord
    rw [dif_neg h2, dif_pos (by rw [hk]; exact List.mem_singleton.mpr rfl)]
    rw [hget]
    simp only [Nat.zero_add]

/-- A stack x : [A, B, C] gathered at a two-column array idx : [N, 2] of start indices (offset axis 1, collapsed axes 0 and 1,
    start index map [0, 1], the index vector on axis 1, slices of one whole row of axis 2): result element (n, o) is x at
    position idx[n, 0] on axis 0, read as a signed integer and clamped into [0, A - 1], position idx[n, 1] on axis 1, read as
    a signed integer and clamped into [0, B - 1], and o on axis 2. -/
theorem gather3_pair_apply {α : Type} {A B C N w : Nat} (hA : 0 < A) (hB : 0 < B)
    (d : GatherDims ⟨3, ![A, B, C]⟩ ⟨2, ![N, 2]⟩ ⟨2, ![N, C]⟩)
    (hod : d.offsetDims = [1]) (hcd : d.collapsedSliceDims = [0, 1]) (hob : d.operandBatchingDims = [])
    (hsm : d.startIndexMap = [0, 1]) (hiv : d.indexVectorDim = 1) (hss : d.sliceSizes = ![1, 1, C])
    (x : (⟨3, ![A, B, C]⟩ : Shape).Idx → α) (idx : IVec ⟨2, ![N, 2]⟩ w) (n : Fin N) (o : Fin C) :
    Host.gather d x idx (ix2 n o)
      = x (ix3 ⟨min (idx (ix2 n 0)).toInt.toNat (A - 1), by omega⟩
          ⟨min (idx (ix2 n 1)).toInt.toNat (B - 1), by omega⟩ o) := by
  obtain ⟨od, cd, ob, sb, sm, iv, ss, wf⟩ := d
  simp only at hod hcd hob hsm hiv hss
  subst hod hcd hob hsm hiv hss
  exact gather3_core hA hB sb wf x idx n o

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

/-- The pair gather where both start indices are inside the stack: when idx[n, 0] reads, as a signed integer, as the
    coordinate a of axis 0 and idx[n, 1] as the coordinate b of axis 1, both clamps are the identity and result element
    (n, o) is x at (a, b, o). -/
theorem gather3_pair_apply_of_eq {α : Type} {A B C N w : Nat}
    (d : GatherDims ⟨3, ![A, B, C]⟩ ⟨2, ![N, 2]⟩ ⟨2, ![N, C]⟩)
    (hod : d.offsetDims = [1]) (hcd : d.collapsedSliceDims = [0, 1]) (hob : d.operandBatchingDims = [])
    (hsm : d.startIndexMap = [0, 1]) (hiv : d.indexVectorDim = 1) (hss : d.sliceSizes = ![1, 1, C])
    (x : (⟨3, ![A, B, C]⟩ : Shape).Idx → α) (idx : IVec ⟨2, ![N, 2]⟩ w) (n : Fin N) (o : Fin C)
    (a : Fin A) (b : Fin B)
    (ha : (idx (ix2 n 0)).toInt = (a.val : Int)) (hb : (idx (ix2 n 1)).toInt = (b.val : Int)) :
    Host.gather d x idx (ix2 n o) = x (ix3 a b o) := by
  rw [gather3_pair_apply a.pos b.pos d hod hcd hob hsm hiv hss x idx n o,
    clamp_fin_eq _ a ha, clamp_fin_eq _ b hb]

/-- The pair gather where both start indices are inside the stack, on the words themselves: when idx[n, 0] reads as a
    signed integer in [0, A) and idx[n, 1] in [0, B), result element (n, o) is x at those two positions and o. -/
theorem gather3_pair_apply_of_lt {α : Type} {A B C N w : Nat}
    (d : GatherDims ⟨3, ![A, B, C]⟩ ⟨2, ![N, 2]⟩ ⟨2, ![N, C]⟩)
    (hod : d.offsetDims = [1]) (hcd : d.collapsedSliceDims = [0, 1]) (hob : d.operandBatchingDims = [])
    (hsm : d.startIndexMap = [0, 1]) (hiv : d.indexVectorDim = 1) (hss : d.sliceSizes = ![1, 1, C])
    (x : (⟨3, ![A, B, C]⟩ : Shape).Idx → α) (idx : IVec ⟨2, ![N, 2]⟩ w) (n : Fin N) (o : Fin C)
    (ha0 : 0 ≤ (idx (ix2 n 0)).toInt) (haA : (idx (ix2 n 0)).toInt < (A : Int))
    (hb0 : 0 ≤ (idx (ix2 n 1)).toInt) (hbB : (idx (ix2 n 1)).toInt < (B : Int)) :
    Host.gather d x idx (ix2 n o)
      = x (ix3 ⟨(idx (ix2 n 0)).toInt.toNat, by omega⟩ ⟨(idx (ix2 n 1)).toInt.toNat, by omega⟩ o) :=
  gather3_pair_apply_of_eq d hod hcd hob hsm hiv hss x idx n o ⟨(idx (ix2 n 0)).toInt.toNat, by omega⟩
    ⟨(idx (ix2 n 1)).toInt.toNat, by omega⟩ (by show _ = ((Int.toNat _ : Nat) : Int); omega)
    (by show _ = ((Int.toNat _ : Nat) : Int); omega)

end PairGather

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.RefValue.lean ====
/-
  The reference program's result, entry by entry, is the degree-bucketed combine.

  The program counts each node's in-neighbours by scattering float ones onto the target indices; that count, as a real, is
  the in-degree. Converted to a word and clamped above by 4 it is the node's bucket; clamped below by 1 it is the divisor of
  the mean. The program evaluates the linear maps of ALL five buckets into a stack [5, N, 128] and then picks, for node n,
  row n of the stack of its own bucket, by a gather at the pair of index words (bucket of n, n). Both index words are inside
  the stack (0 ≤ bucket ≤ 4, 0 ≤ n < N), so neither the wrap of a negative index nor the gather's clamp changes them, and
  the picked entry is the stack's entry at (bucket of n, n, o): the reference arrangement of the combine.
-/
import proofs.«149878_j936302871077_2_alg».proof.Proof.Shared
import proofs.«149878_j936302871077_2_alg».proof.Proof.LibPairGather
import proofs.«149878_j936302871077_2_alg».proof.Proof.LibGatherScatter
import proofs.«149878_j936302871077_2_alg».proof.Proof.LibMeanLayer
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP Cert.Shared
open Idealize.ShloMosaic Idealize.ShloMosaic.ValueIdx

variable (x0 : (⟨S200000x128, .f32⟩ : BufTy).Contents (Elt Ideal)) (x1 : (⟨S5x128x128, .f32⟩ : BufTy).Contents (Elt Ideal))
  (x2 : (⟨S5x128, .f32⟩ : BufTy).Contents (Elt Ideal)) (x3 : (⟨S5x128x128, .f32⟩ : BufTy).Contents (Elt Ideal))
  (x4 : (⟨S5x128, .f32⟩ : BufTy).Contents (Elt Ideal)) (x5 : (⟨S2x625000, .i32⟩ : BufTy).Contents (Elt Ideal))

/-! ## The in-degree -/

/-- The scatter's operand is the zero array. -/
theorem v5_eq : val_main_v5 (F := Ideal) = fun _ => (0 : EReal) := by
  funext i
  rw [val_main_v5_apply, val_main_cst_0_apply]
  exact Ideal.ofBits_zero_f32

/-- The scatter's updates are all one. -/
theorem v4_eq : val_main_v4 (F := Ideal) = fun _ => (1 : EReal) := by
  funext i
  rw [val_main_v4_apply, val_main_cst_apply]
  exact MeanLayer.one_f32

/-- The scattered ones at node n are the in-degree of n, as a real. -/
theorem v7_at (n : Fin 200000) : val_main_v7 (F := Ideal) x5 (ix1 n) = (((cnt x5 n : ℕ) : ℝ) : EReal) := by
  unfold val_main_v7
  rw [v5_eq, v4_eq]
  exact ScatterCount.scatterAdd_zero_one _ _ _

/-- Converted to a word, the in-degree is itself: it is below 2^31. -/
theorem v22_at (n : Fin 200000) : val_main_v22 (F := Ideal) x5 (ix1 n) = BitVec.ofNat 32 (cnt x5 n) := by
  rw [val_main_v22_apply, v7_at]
  exact ScatterCount.fptosi_natCast_of_lt _ (cnt_lt x5 n)

/-- The signed minimum of a small natural number, as a word, with the word 4 is the word of the minimum. -/
theorem minsi_ofNat_four (c : ℕ) (hc : c < 2 ^ 31) :
    IntOp.minsi (BitVec.ofNat 32 c) 4#32 = BitVec.ofNat 32 (min c 4) := by
  have h4 : (4#32 : BitVec 32).toInt = 4 := by decide
  have hc' := ScatterCount.toInt_ofNat_of_lt c hc
  unfold IntOp.minsi
  by_cases h : c < 4
  · have hs : (BitVec.ofNat 32 c).slt 4#32 = true := by
      simp only [BitVec.slt, decide_eq_true_eq]
      rw [hc', h4]
      omega
    rw [hs, if_pos rfl, Nat.min_eq_left (by omega)]
  · have hs : (BitVec.ofNat 32 c).slt 4#32 = false := by
      simp only [BitVec.slt, decide_eq_false_iff_not, not_lt]
      rw [hc', h4]
      omega
    rw [hs, if_neg (by simp), Nat.min_eq_right (by omega)]

/-- The bucket word of node n: the word of min(in-degree, 4). -/
theorem v24_at (n : Fin 200000) :
    val_main_v24 (F := Ideal) x5 (ix1 n) = BitVec.ofNat 32 (Combine.bucket (cnt x5 n)).val := by
  rw [val_main_v24_apply, v22_at, val_main_v23_apply, val_main_c_4_apply]
  exact minsi_ofNat_four _ (cnt_lt x5 n)

/-- The bucket word reads, signed, as the bucket. -/
theorem v24_toInt (n : Fin 200000) :
    (val_main_v24 (F := Ideal) x5 (ix1 n)).toInt = ((Combine.bucket (cnt x5 n)).val : Int) := by
  rw [v24_at]
  exact ScatterCount.toInt_ofNat_of_lt _ (by have := (Combine.bucket (cnt x5 n)).isLt; omega)

/-- The divisor of the mean at node n: the in-degree clamped below by 1. -/
theorem v18_at (n : Fin 200000) : val_main_v18 (F := Ideal) x5 (ix1 n) = Combine.clampDeg (cnt x5 n) := by
  rw [val_main_v18_apply, v7_at, val_main_call0_v1_apply, val_main_call0_v0_apply, val_main_cst_3_apply]
  show max (Ideal.ofBits .f32 0x3F800000#32) _ = _
  rw [MeanLayer.one_f32]
  rfl

/-! ## The two index words -/

/-- The wrap of a negative index leaves the bucket word alone: it is not negative. -/
theorem v41_at (n : Fin 200000) : val_main_v41 (F := Ideal) x5 (ix1 n) = val_main_v24 (F := Ideal) x5 (ix1 n) := by
  rw [val_main_v41_apply, val_main_v38_apply, val_main_v40_apply, val_main_v37_apply, val_main_c_5_apply]
  exact Pegcn.Lib.wrap_of_nonneg _ _ (by rw [v24_toInt]; omega)

/-- The wrap of a negative index leaves the node's own position alone. -/
theorem v46_at (n : Fin 200000) : val_main_v46 (F := Ideal) (ix1 n) = BitVec.ofNat 32 n.val := by
  rw [val_main_v46_apply, val_main_v43_apply, val_main_v45_apply, val_main_v42_apply, val_main_c_7_apply,
    val_main_v36_apply]
  show Scalar.select (IntOp.cmpi .slt (BitVec.ofNat 32 n.val) 0#32) _ (BitVec.ofNat 32 n.val) = _
  exact Pegcn.Lib.wrap_of_nonneg _ _
    (by rw [ScatterCount.toInt_ofNat_of_lt n.val (by have := n.isLt; omega)]; omega)

/-- Column 0 of the index pairs at node n is the bucket word. -/
theorem v49_col0 (n : Fin 200000) :
    val_main_v49 (F := Ideal) x5 (ix2 n (0 : Fin 2)) = val_main_v24 (F := Ideal) x5 (ix1 n) := by
  unfold val_main_v49
  rw [concatenate_pair_apply_left (1 : Fin S200000x2.rank) _ _ concatenates_S200000x1_S200000x1_S200000x2_d1
    (ix2 n (0 : Fin 2)) rfl (ix2 n (0 : Fin 1)) (fun b => by match b with | ⟨0, _⟩ => rfl | ⟨1, _⟩ => rfl)]
  rw [val_main_v47_apply]
  have e : idx_main_v47 (ix2 n (0 : Fin 1)) = ix1 n := funext fun a => by match a with | ⟨0, _⟩ => rfl
  rw [e, v41_at]

/-- Column 1 of the index pairs at node n is the word of n. -/
theorem v49_col1 (n : Fin 200000) :
    val_main_v49 (F := Ideal) x5 (ix2 n (1 : Fin 2)) = BitVec.ofNat 32 n.val := by
  unfold val_main_v49
  rw [concatenate_pair_apply_right (1 : Fin S200000x2.rank) _ _ concatenates_S200000x1_S200000x1_S200000x2_d1
    (ix2 n (1 : Fin 2)) rfl rfl (ix2 n (0 : Fin 1))
    (fun b hb => by
      match b with
      | ⟨0, _⟩ => rfl
      | ⟨1, _⟩ => exact absurd rfl hb)
    rfl]
  rw [val_main_v48_apply]
  have e : idx_main_v48 (ix2 n (0 : Fin 1)) = ix1 n := funext fun a => by match a with | ⟨0, _⟩ => rfl
  rw [e, v46_at]

/-! ## The gather picks the node's own bucket -/

/-- The result at (n, o) is the stack at (bucket of n, n, o). -/
theorem v50_at (n : Fin 200000) (o : Fin 128) :
    val_main_v50 (F := Ideal) x0 x1 x2 x3 x4 x5 (ix2 n o)
      = val_main_v35 (F := Ideal) x0 x1 x2 x3 x4 x5 (ix3 (Combine.bucket (cnt x5 n)) n o) := by
  unfold val_main_v50
  exact PairGather.gather3_pair_apply_of_eq _ rfl rfl rfl rfl rfl rfl _ _ n o (Combine.bucket (cnt x5 n)) n
    (by rw [v49_col0, v24_toInt])
    (by rw [v49_col1]; exact ScatterCount.toInt_ofNat_of_lt n.val (by have := n.isLt; omega))

/-! ## The stack at an entry -/

/-- The mean of the neighbour rows at (n, d): the neighbour sum over the clamped in-degree. -/
theorem v21_at (n : Fin 200000) (d : Fin 128) :
    val_main_v21 (F := Ideal) x0 x5 (ix2 n d) = Ideal.div (NS x0 x5 (ix2 n d)) (Combine.clampDeg (cnt x5 n)) := by
  rw [val_main_v21_apply, val_main_v20_apply, val_main_v19_apply]
  have e : idx_main_v19 (idx_main_v20 (ix2 n d)) = ix1 n := funext fun a => by match a with | ⟨0, _⟩ => rfl
  rw [e, v18_at]
  rfl

/-- The neighbour product of bucket b at (n, o). -/
theorem v26_at (b : Fin 5) (n : Fin 200000) (o : Fin 128) :
    val_main_v26 (F := Ideal) x0 x1 x5 (ix3 b n o)
      = ∑ d : Fin 128, x1 (ix3 b o d) * Ideal.div (NS x0 x5 (ix2 n d)) (Combine.clampDeg (cnt x5 n)) := by
  rw [val_main_v26_apply, val_main_v25_apply]
  refine Finset.sum_congr rfl fun k _ => ?_
  have el : lidx_main_v25 (idx_main_v26 (ix3 b n o)) k = ix3 b o k :=
    funext fun a => by match a with | ⟨0, _⟩ => rfl | ⟨1, _⟩ => rfl | ⟨2, _⟩ => rfl
  have er : ridx_main_v25 (idx_main_v26 (ix3 b n o)) k = ix2 n k :=
    funext fun a => by match a with | ⟨0, _⟩ => rfl | ⟨1, _⟩ => rfl
  rw [el, er, v21_at]

/-- The neighbour bias of bucket b at (n, o). -/
theorem v28_at (b : Fin 5) (n : Fin 200000) (o : Fin 128) :
    val_main_v28 (F := Ideal) x2 (ix3 b n o) = x2 (ix2 b o) := by
  rw [val_main_v28_apply, val_main_v27_apply]
  congr 1
  exact funext fun a => by match a with | ⟨0, _⟩ => rfl | ⟨1, _⟩ => rfl

/-- The self product of bucket b at (n, o). -/
theorem v31_at (b : Fin 5) (n : Fin 200000) (o : Fin 128) :
    val_main_v31 (F := Ideal) x0 x3 (ix3 b n o) = ∑ d : Fin 128, x3 (ix3 b o d) * x0 (ix2 n d) := by
  rw [val_main_v31_apply, val_main_v30_apply]
  refine Finset.sum_congr rfl fun k _ => ?_
  have el : lidx_main_v30 (idx_main_v31 (ix3 b n o)) k = ix3 b o k :=
    funext fun a => by match a with | ⟨0, _⟩ => rfl | ⟨1, _⟩ => rfl | ⟨2, _⟩ => rfl
  have er : ridx_main_v30 (idx_main_v31 (ix3 b n o)) k = ix2 n k :=
    funext fun a => by match a with | ⟨0, _⟩ => rfl | ⟨1, _⟩ => rfl
  rw [el, er]

/-- The self bias of bucket b at (n, o). -/
theorem v34_at (b : Fin 5) (n : Fin 200000) (o : Fin 128) :
    val_main_v34 (F := Ideal) x4 (ix3 b n o) = x4 (ix2 b o) := by
  rw [val_main_v34_apply, val_main_v33_apply]
  congr 1
  exact funext fun a => by match a with | ⟨0, _⟩ => rfl | ⟨1, _⟩ => rfl

/-- The stack at (bucket of n, n, o) is the reference arrangement's entry (n, o). -/
theorem v35_at (n : Fin 200000) (o : Fin 128) :
    val_main_v35 (F := Ideal) x0 x1 x2 x3 x4 x5 (ix3 (Combine.bucket (cnt x5 n)) n o)
      = Combine.refEntry x0 (NS x0 x5) x1 x3 x2 x4 (cnt x5 n) n o := by
  rw [val_main_v35_apply, val_main_v32_apply, val_main_v29_apply, v26_at, v28_at, v31_at, v34_at]
  rfl

/-! ## The result -/

/-- The reference program's result is the combine of the argument arrays, the neighbour sums and the in-degrees. -/
theorem ref_eq (x0 : (⟨S200000x128, .f32⟩ : BufTy).Contents (Elt Ideal)) (x1 : (⟨S5x128x128, .f32⟩ : BufTy).Contents (Elt Ideal))
    (x2 : (⟨S5x128, .f32⟩ : BufTy).Contents (Elt Ideal)) (x3 : (⟨S5x128x128, .f32⟩ : BufTy).Contents (Elt Ideal))
    (x4 : (⟨S5x128, .f32⟩ : BufTy).Contents (Elt Ideal)) (x5 : (⟨S2x625000, .i32⟩ : BufTy).Contents (Elt Ideal)) :
    Cert.ReferenceIdeal.ReadP.val_main_v50 (F := Ideal) x0 x1 x2 x3 x4 x5 = Cert.Shared.result x0 x1 x2 x3 x4 x5 := by
  funext i
  obtain ⟨n, o, rfl⟩ : ∃ (n : Fin 200000) (o : Fin 128), i = ix2 n o := ⟨i 0, i 1, eq_ix2 i⟩
  rw [v50_at, v35_at]
  rfl

end Cert.ReferenceIdeal.RefValue

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«149878_j936302871077_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.TileEntry.lean ====
/-
  One tile of the combine kernel, read at an entry.

  The body multiplies the row block [2000, 256] made of the scaled neighbour sums (left 128 columns) and the node's own
  features (right 128 columns) by the stacked weight table [256, 640], whose column 128·b + o belongs to bucket b and
  output o, its upper 128 rows to the neighbour map and its lower 128 rows to the self map. So the product at (p, c) is the
  sum over the 128 input features of (ns·inv)·(upper row) plus the sum of x·(lower row): a contraction over 256 = 128 + 128
  coordinates split in two. The block the body leaves at (p, o) is then 0 + Σ_b mask(p,b)·(product(p, 128·b + o) + bias_b(o)),
  the five terms added in order.
-/
import proofs.«149878_j936302871077_2_alg».proof.Proof.Gen.KernelIdeal.Value
import proofs.«149878_j936302871077_2_alg».proof.Proof.LibDotRecord
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx

/-- The row block the matrix unit reads: at a column below 128 the neighbour sum times the reciprocal degree of the row. -/
theorem cat_left {h : Shape.Concatenates [S2000x128, S2000x128] S2000x256 (1 : Fin 2)} (A B : FVec Ideal S2000x128 .bf16)
    (p : Fin 2000) (d : Fin 128) :
    concatenate S2000x256 1 [⟨S2000x128, A⟩, ⟨S2000x128, B⟩] h (ix2 p (Fin.castAdd 128 d)) = A (ix2 p d) := by
  refine concatenate_pair_apply_left (t := S2000x256) (s₁ := S2000x128) (s₂ := S2000x128) (1 : Fin 2) A B h
    (ix2 p (Fin.castAdd 128 d)) rfl (ix2 p d) fun b => ?_
  match b with
  | ⟨0, _⟩ => rfl
  | ⟨1, _⟩ => rfl

/-- At a column from 128 on, the node's own feature. -/
theorem cat_right {h : Shape.Concatenates [S2000x128, S2000x128] S2000x256 (1 : Fin 2)} (A B : FVec Ideal S2000x128 .bf16)
    (p : Fin 2000) (d : Fin 128) :
    concatenate S2000x256 1 [⟨S2000x128, A⟩, ⟨S2000x128, B⟩] h (ix2 p (Fin.natAdd 128 d)) = B (ix2 p d) := by
  refine concatenate_pair_apply_right (t := S2000x256) (s₁ := S2000x128) (s₂ := S2000x128) (1 : Fin 2) A B h
    (ix2 p (Fin.natAdd 128 d)) rfl rfl (ix2 p d) (fun b hb => ?_) ?_
  · match b with
    | ⟨0, _⟩ => rfl
    | ⟨1, _⟩ => exact absurd rfl hb
  · show d.val + 128 = 128 + d.val
    omega

/-- A [2000, 1] column broadcast over [2000, 128] reads, at (p, d), the column's entry p. -/
theorem col_bcast {α : Type} (v : S2000x1.Idx → α) (h : S2000x1.Broadcasts S2000x128) (p : Fin 2000) (d : Fin 128) :
    broadcastTo S2000x128 v h (ix2 p d) = v (ix2 p (0 : Fin 1)) := by
  refine broadcastTo_apply v h (ix2 p d) (ix2 p (0 : Fin 1)) fun ax => ?_
  match ax with
  | ⟨0, _⟩ =>
    show p.val = if (2000 : ℕ) = 1 then 0 else p.val
    rw [if_neg (by decide)]
  | ⟨1, _⟩ =>
    show (0 : ℕ) = if (1 : ℕ) = 1 then 0 else d.val
    rw [if_pos rfl]

/-- The product of the row block with the weight table at (p, c): the neighbour half plus the self half. -/
theorem pay2_apply (P1 : Vec Ideal S2000x128 .bf16) (P2 : Vec Ideal S2000x1 .f32) (P3 : Vec Ideal S2000x128 .f32)
    (P4 : Vec Ideal S256x640 .bf16) (p : Fin 2000) (c : Fin 640) :
    k0_pay2 P1 P2 P3 P4 (ix2 p c)
      = (∑ d : Fin 128, (P1 (ix2 p d) * P2 (ix2 p (0 : Fin 1))) * P4 (ix2 (Fin.castAdd 128 d) c))
        + ∑ d : Fin 128, P3 (ix2 p d) * P4 (ix2 (Fin.natAdd 128 d) c) := by
  unfold k0_pay2
  refine (DotRecord.matmul_zero_apply (M := 2000) (K := 256) (N := 640) dot_S2000x256_S256x640_S2000x640_1_0_0_1_n_n
    rfl rfl rfl rfl rfl rfl _ _ none p c).trans ?_
  refine (Fin.sum_univ_add (a := 128) (b := 128) _).trans ?_
  congr 1
  · refine Finset.sum_congr rfl fun d _ => ?_
    rw [cat_left]
    simp only [shapeCast_self]
    show (P1 (ix2 p d) * (broadcastTo S2000x128 P2 broadcasts_S2000x1_S2000x128) (ix2 p d)) * _ = _
    rw [col_bcast]
  · refine Finset.sum_congr rfl fun d _ => ?_
    rw [cat_right]
    simp only [shapeCast_self]
    rfl

/-- Where the block index (p, o) reads the mask, the product and the bias rows. -/
theorem ixs (p : Fin 2000) (o : Fin 128) :
    Value.ix6_0 (ix2 p o) = ix2 p (0 : Fin 5) ∧ Value.ix6_3 (ix2 p o) = ix2 p (1 : Fin 5) ∧ Value.ix6_6 (ix2 p o) = ix2 p (2 : Fin 5)
    ∧ Value.ix6_9 (ix2 p o) = ix2 p (3 : Fin 5) ∧ Value.ix6_12 (ix2 p o) = ix2 p (4 : Fin 5)
    ∧ Value.ix6_1 (ix2 p o) = ix2 p ⟨0 * 128 + o.val, by omega⟩ ∧ Value.ix6_4 (ix2 p o) = ix2 p ⟨1 * 128 + o.val, by omega⟩
    ∧ Value.ix6_7 (ix2 p o) = ix2 p ⟨2 * 128 + o.val, by omega⟩ ∧ Value.ix6_10 (ix2 p o) = ix2 p ⟨3 * 128 + o.val, by omega⟩
    ∧ Value.ix6_13 (ix2 p o) = ix2 p ⟨4 * 128 + o.val, by omega⟩
    ∧ Value.ix6_2 (ix2 p o) = ix2 (0 : Fin 1) o ∧ Value.ix6_5 (ix2 p o) = ix2 (0 : Fin 1) o ∧ Value.ix6_8 (ix2 p o) = ix2 (0 : Fin 1) o
    ∧ Value.ix6_11 (ix2 p o) = ix2 (0 : Fin 1) o ∧ Value.ix6_14 (ix2 p o) = ix2 (0 : Fin 1) o := by
  refine ⟨?_, ?_, ?_, ?_, ?_, ?_, ?_, ?_, ?_, ?_, ?_, ?_, ?_, ?_, ?_⟩ <;>
    (funext a; apply Fin.ext; match a with
      | ⟨0, _⟩ => rfl
      | ⟨1, _⟩ => first | rfl | (show _ = _; simp only [ix2]; omega))

/-- Bucket b's product at (p, o): column 128·b + o of the weight table, the neighbour half plus the self half. -/
def prod (P1 : Vec Ideal S2000x128 .bf16) (P2 : Vec Ideal S2000x1 .f32) (P3 : Vec Ideal S2000x128 .f32)
    (P4 : Vec Ideal S256x640 .bf16) (p : Fin 2000) (o : Fin 128) (b : Fin 5) : EReal :=
  (∑ d : Fin 128, (P1 (ix2 p d) * P2 (ix2 p (0 : Fin 1))) * P4 (ix2 (Fin.castAdd 128 d) ⟨b.val * 128 + o.val, by omega⟩))
    + ∑ d : Fin 128, P3 (ix2 p d) * P4 (ix2 (Fin.natAdd 128 d) ⟨b.val * 128 + o.val, by omega⟩)

/-- THE BLOCK A POINT LEAVES, at (p, o): the five masked terms added in order from zero. -/
theorem E6_apply (P0 : Vec Ideal S2000x5 .f32) (P1 : Vec Ideal S2000x128 .bf16) (P2 : Vec Ideal S2000x1 .f32)
    (P3 : Vec Ideal S2000x128 .f32) (P4 : Vec Ideal S256x640 .bf16) (P5 P6 P7 P8 P9 : Vec Ideal S1x128 .f32)
    (p : Fin 2000) (o : Fin 128) :
    Value.E6 P0 P1 P2 P3 P4 P5 P6 P7 P8 P9 (ix2 p o)
      = ((((0 + P0 (ix2 p (0 : Fin 5)) * (prod P1 P2 P3 P4 p o 0 + P5 (ix2 (0 : Fin 1) o)))
            + P0 (ix2 p (1 : Fin 5)) * (prod P1 P2 P3 P4 p o 1 + P6 (ix2 (0 : Fin 1) o)))
          + P0 (ix2 p (2 : Fin 5)) * (prod P1 P2 P3 P4 p o 2 + P7 (ix2 (0 : Fin 1) o)))
          + P0 (ix2 p (3 : Fin 5)) * (prod P1 P2 P3 P4 p o 3 + P8 (ix2 (0 : Fin 1) o)))
        + P0 (ix2 p (4 : Fin 5)) * (prod P1 P2 P3 P4 p o 4 + P9 (ix2 (0 : Fin 1) o)) := by
  obtain ⟨e0, e3, e6, e9, e12, e1, e4, e7, e10, e13, e2, e5, e8, e11, e14⟩ := ixs p o
  show ((((Ideal.ofBits .f32 0x00000000#32 + P0 (Value.ix6_0 (ix2 p o)) * (k0_pay2 P1 P2 P3 P4 (Value.ix6_1 (ix2 p o)) + P5 (Value.ix6_2 (ix2 p o))))
            + P0 (Value.ix6_3 (ix2 p o)) * (k0_pay2 P1 P2 P3 P4 (Value.ix6_4 (ix2 p o)) + P6 (Value.ix6_5 (ix2 p o))))
          + P0 (Value.ix6_6 (ix2 p o)) * (k0_pay2 P1 P2 P3 P4 (Value.ix6_7 (ix2 p o)) + P7 (Value.ix6_8 (ix2 p o))))
          + P0 (Value.ix6_9 (ix2 p o)) * (k0_pay2 P1 P2 P3 P4 (Value.ix6_10 (ix2 p o)) + P8 (Value.ix6_11 (ix2 p o))))
        + P0 (Value.ix6_12 (ix2 p o)) * (k0_pay2 P1 P2 P3 P4 (Value.ix6_13 (ix2 p o)) + P9 (Value.ix6_14 (ix2 p o))) = _
  rw [e0, e3, e6, e9, e12, e1, e4, e7, e10, e13, e2, e5, e8, e11, e14, Ideal.ofBits_zero_f32]
  simp only [pay2_apply]
  rfl

end Cert.KernelIdeal.Tile

end
-- ==== Proof.ArrEntry.lean ====
/-
  The combine kernel's result at an entry, written over whole arrays.

  Given a one-hot mask [200000, 5], the neighbour sums and the node features [200000, 128], the reciprocal-degree column
  [200000, 1], the stacked weight table [256, 640] and the summed biases [5, 128], node n's output o is

      0 + Σ_b mask(n,b) · ( Σ_d (ns(n,d)·inv(n))·W(d, 128·b + o) + Σ_d x(n,d)·W(128 + d, 128·b + o) + bias(b,o) ),

  the five terms added in order. This is what every tile of the kernel computes for its own 2000 rows.
-/
import Idealize.ShloMosaic.PureOps.Ideal
import Idealize.ShloMosaic.Lib.ValueIdx

noncomputable section

namespace Combine

open Idealize.ShloMosaic Idealize.ShloMosaic.ValueIdx

/-- Bucket b's product at (n, o): column 128·b + o of the weight table against the scaled neighbour sums (upper 128 rows)
    and the node's own features (lower 128 rows). -/
def arrProd (ns x : (⟨2, ![200000, 128]⟩ : Shape).Idx → EReal) (inv : (⟨2, ![200000, 1]⟩ : Shape).Idx → EReal)
    (w : (⟨2, ![256, 640]⟩ : Shape).Idx → EReal) (n : Fin 200000) (o : Fin 128) (b : Fin 5) : EReal :=
  (∑ d : Fin 128, (ns (ix2 n d) * inv (ix2 n (0 : Fin 1))) * w (ix2 (Fin.castAdd 128 d) ⟨b.val * 128 + o.val, by omega⟩))
    + ∑ d : Fin 128, x (ix2 n d) * w (ix2 (Fin.natAdd 128 d) ⟨b.val * 128 + o.val, by omega⟩)

/-- The masked sum of the five buckets' terms at (n, o), added in order from zero. -/
def arrEntry (mk : (⟨2, ![200000, 5]⟩ : Shape).Idx → EReal) (ns x : (⟨2, ![200000, 128]⟩ : Shape).Idx → EReal)
    (inv : (⟨2, ![200000, 1]⟩ : Shape).Idx → EReal) (w : (⟨2, ![256, 640]⟩ : Shape).Idx → EReal)
    (bias : (⟨2, ![5, 128]⟩ : Shape).Idx → EReal) (n : Fin 200000) (o : Fin 128) : EReal :=
  ((((0 + mk (ix2 n (0 : Fin 5)) * (arrProd ns x inv w n o 0 + bias (ix2 (0 : Fin 5) o)))
        + mk (ix2 n (1 : Fin 5)) * (arrProd ns x inv w n o 1 + bias (ix2 (1 : Fin 5) o)))
      + mk (ix2 n (2 : Fin 5)) * (arrProd ns x inv w n o 2 + bias (ix2 (2 : Fin 5) o)))
      + mk (ix2 n (3 : Fin 5)) * (arrProd ns x inv w n o 3 + bias (ix2 (3 : Fin 5) o)))
    + mk (ix2 n (4 : Fin 5)) * (arrProd ns x inv w n o 4 + bias (ix2 (4 : Fin 5) o))

/-- The same as a whole array. -/
def arrOut (mk : (⟨2, ![200000, 5]⟩ : Shape).Idx → EReal) (ns x : (⟨2, ![200000, 128]⟩ : Shape).Idx → EReal)
    (inv : (⟨2, ![200000, 1]⟩ : Shape).Idx → EReal) (w : (⟨2, ![256, 640]⟩ : Shape).Idx → EReal)
    (bias : (⟨2, ![5, 128]⟩ : Shape).Idx → EReal) : (⟨2, ![200000, 128]⟩ : Shape).Idx → EReal :=
  fun i => arrEntry mk ns x inv w bias (i 0) (i 1)

theorem arrOut_apply (mk : (⟨2, ![200000, 5]⟩ : Shape).Idx → EReal) (ns x : (⟨2, ![200000, 128]⟩ : Shape).Idx → EReal)
    (inv : (⟨2, ![200000, 1]⟩ : Shape).Idx → EReal) (w : (⟨2, ![256, 640]⟩ : Shape).Idx → EReal)
    (bias : (⟨2, ![5, 128]⟩ : Shape).Idx → EReal) (n : Fin 200000) (o : Fin 128) :
    arrOut mk ns x inv w bias (ix2 n o) = arrEntry mk ns x inv w bias n o := rfl

end Combine

end
-- ==== Proof.KernelBlocks.lean ====
/-
  One tile of the combine kernel against the whole arrays.

  The body's result block, over ARBITRARY input blocks, is the masked five-term sum of their rows; and when row p of each
  row-blocked input block is row n of its array, and the weight and bias blocks are the whole tables, entry (p, o) of the
  result block is the whole-array entry (n, o).
-/
import proofs.«149878_j936302871077_2_alg».proof.Proof.Gen.KernelIdeal.Value
import proofs.«149878_j936302871077_2_alg».proof.Proof.TileEntry
import proofs.«149878_j936302871077_2_alg».proof.Proof.ArrEntry
import Idealize.ShloMosaic.Lib.Pipeline.Value
import Idealize.ShloMosaic.Lib.ValueIdx

noncomputable section

namespace Cert.KernelIdeal.KernelBlocks

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- Row b of the [5, 128] bias block, loaded through the [1, 128] rectangle at offset (b, 0). -/
theorem ld_row (x5 : Vec Ideal S5x128 .f32) (b : Fin 5)
    (inb : ∀ a, (![b.val, 0] : Fin 2 → Nat) a + S1x128.size a ≤ S5x128.size a) (o : Fin 128) :
    View.ld x5 (Rect.unit (s := S5x128) ![b.val, 0] S1x128.size inb) (ix2 (0 : Fin 1) o) = x5 (ix2 b o) := by
  show x5 ((Rect.unit (s := S5x128) ![b.val, 0] S1x128.size inb).idx (ix2 (0 : Fin 1) o)) = x5 (ix2 b o)
  congr 1
  funext a
  apply Fin.ext
  match a with
  | ⟨0, _⟩ => show b.val + 1 * 0 = b.val; omega
  | ⟨1, _⟩ => show 0 + 1 * o.val = o.val; omega

/-- WHAT THE BODY LEAVES in the result block, over arbitrary input blocks, at (p, o). -/
theorem out0_6_apply (x0 : Vec Ideal S2000x128 .bf16) (x1 : Vec Ideal S2000x128 .f32) (x2 : Vec Ideal S2000x1 .f32)
    (x3 : Vec Ideal S2000x5 .f32) (x4 : Vec Ideal S256x640 .bf16) (x5 : Vec Ideal S5x128 .f32) (p : Fin 2000) (o : Fin 128) :
    out0_6 x0 x1 x2 x3 x4 x5 (ix2 p o)
      = ((((0 + x3 (ix2 p (0 : Fin 5)) * (Tile.prod x0 x2 x1 x4 p o 0 + x5 (ix2 (0 : Fin 5) o)))
            + x3 (ix2 p (1 : Fin 5)) * (Tile.prod x0 x2 x1 x4 p o 1 + x5 (ix2 (1 : Fin 5) o)))
          + x3 (ix2 p (2 : Fin 5)) * (Tile.prod x0 x2 x1 x4 p o 2 + x5 (ix2 (2 : Fin 5) o)))
          + x3 (ix2 p (3 : Fin 5)) * (Tile.prod x0 x2 x1 x4 p o 3 + x5 (ix2 (3 : Fin 5) o)))
        + x3 (ix2 p (4 : Fin 5)) * (Tile.prod x0 x2 x1 x4 p o 4 + x5 (ix2 (4 : Fin 5) o)) := by
  unfold out0_6
  refine (Value.canon6_eq (View.ld x3 r0_3) (View.ld x0 r0_0) (View.ld x2 r0_1) (View.ld x1 r0_0) (View.ld x4 r0_2)
    (View.ld x5 r0_4) (View.ld x5 r0_5) (View.ld x5 r0_6) (View.ld x5 r0_7) (View.ld x5 r0_8) (ix2 p o)).trans ?_
  refine (Tile.E6_apply _ _ _ _ _ _ _ _ _ _ p o).trans ?_
  have e4 : View.ld x5 r0_4 (ix2 (0 : Fin 1) o) = x5 (ix2 (0 : Fin 5) o) := ld_row x5 0 _ o
  have e5 : View.ld x5 r0_5 (ix2 (0 : Fin 1) o) = x5 (ix2 (1 : Fin 5) o) := ld_row x5 1 _ o
  have e6 : View.ld x5 r0_6 (ix2 (0 : Fin 1) o) = x5 (ix2 (2 : Fin 5) o) := ld_row x5 2 _ o
  have e7 : View.ld x5 r0_7 (ix2 (0 : Fin 1) o) = x5 (ix2 (3 : Fin 5) o) := ld_row x5 3 _ o
  have e8 : View.ld x5 r0_8 (ix2 (0 : Fin 1) o) = x5 (ix2 (4 : Fin 5) o) := ld_row x5 4 _ o
  have e3 : ∀ b : Fin 5, View.ld x3 r0_3 (ix2 p b) = x3 (ix2 p b) := fun b =>
    congrFun (View.ld_unit_zero (S := S2000x5) hz _ x3) (ix2 p b)
  rw [e4, e5, e6, e7, e8, e3 0, e3 1, e3 2, e3 3, e3 4]
  simp only [View.ld_unit_zero (S := S2000x128) hz, View.ld_unit_zero (S := S2000x1) hz, View.ld_unit_zero (S := S256x640) hz]

/-- When row p of every row-blocked input block is row n of its array and the two small blocks are the whole tables, entry
    (p, o) of what the body leaves is the whole-array entry (n, o). -/
theorem entry_of_rows (x0 : Vec Ideal S2000x128 .bf16) (x1 : Vec Ideal S2000x128 .f32) (x2 : Vec Ideal S2000x1 .f32)
    (x3 : Vec Ideal S2000x5 .f32) (x4 : Vec Ideal S256x640 .bf16) (x5 : Vec Ideal S5x128 .f32)
    (A3 : S200000x5.Idx → EReal) (A0 A1 : S200000x128.Idx → EReal) (A2 : S200000x1.Idx → EReal)
    (A4 : S256x640.Idx → EReal) (A5 : S5x128.Idx → EReal) (p : Fin 2000) (o : Fin 128) (n : Fin 200000)
    (h0 : ∀ k : Fin 128, x0 (ix2 p k) = A0 (ix2 n k)) (h1 : ∀ k : Fin 128, x1 (ix2 p k) = A1 (ix2 n k))
    (h2 : x2 (ix2 p (0 : Fin 1)) = A2 (ix2 n (0 : Fin 1))) (h3 : ∀ b : Fin 5, x3 (ix2 p b) = A3 (ix2 n b))
    (h4 : ∀ y, x4 y = A4 y) (h5 : ∀ y, x5 y = A5 y) :
    out0_6 x0 x1 x2 x3 x4 x5 (ix2 p o) = Combine.arrEntry A3 A0 A1 A2 A4 A5 n o := by
  rw [out0_6_apply]
  unfold Combine.arrEntry Combine.arrProd Tile.prod
  simp only [h0, h1, h2, h3, h4, h5]

end Cert.KernelIdeal.KernelBlocks

end
-- ==== Proof.HostArrays.lean ====
/-
  What the kernel's host code prepares before it launches, as pure functions of the argument arrays.

  From the edge list it takes the target column and counts, in 32-bit integers, how many edges land on each node (the
  in-degree); from that it makes the reciprocal of the degree clamped below by one, as a [200000, 1] column, and the one-hot
  row of the bucket min(degree, 4), as a [200000, 5] mask. It sums the source rows of the features onto the targets (the
  neighbour sums) and narrows them to bf16. It lays the two weight stacks side by side bucket by bucket ([128, 640] each,
  input-feature-major), stacks the neighbour table on top of the self table ([256, 640]) and narrows it; and it adds the two
  bias tables. The launch stages exactly these five arrays and the features.
-/
import proofs.«149878_j936302871077_2_alg».proof.Proof.Gen.KernelIdeal.Frame
import Idealize.ShloMosaic.Lib.StableHlo.Run
import Idealize.ShloMosaic.Lib.Pipeline.Value
import Idealize.ShloMosaic.PureOps.Ideal
import Idealize.ShloMosaic.Lib.ValueIdx

noncomputable section

namespace Cert.KernelIdeal.HostArrays

open Cert.KernelIdeal Cert.KernelIdeal.Gen
open Idealize.ShloMosaic Idealize.ShloMosaic.TcCoe Idealize.SL.Sem Idealize.ShloMosaic.StableHlo

/-- The edges' target indices as a [625000, 1] column. -/
def colIdx (x5 : S2x625000.Idx → BitVec 32) : S625000x1.Idx → BitVec 32 :=
  broadcastInDim S625000x1 ![0] bcast_S625000_S625000x1_0
    (shapeCast S625000 (extractStridedSlice S1x625000 ![1, 0] x5 slices_S2x625000_S1x625000_1_0) shapeCasts_S1x625000_S625000)

/-- The edges' source indices, a negative one wrapped by the number of nodes, as a [625000, 1] column. -/
def rowIdx (x5 : S2x625000.Idx → BitVec 32) : S625000x1.Idx → BitVec 32 :=
  broadcastInDim S625000x1 ![0] bcast_S625000_S625000x1_0
    (select
      (cmpi .slt (shapeCast S625000 (extractStridedSlice S1x625000 ![0, 0] x5 slices_S2x625000_S1x625000_0_0) shapeCasts_S1x625000_S625000)
        (broadcastInDim S625000 ![] bcast_S_S625000 (constantI S_ 32 0#32)))
      (addi (shapeCast S625000 (extractStridedSlice S1x625000 ![0, 0] x5 slices_S2x625000_S1x625000_0_0) shapeCasts_S1x625000_S625000)
        (broadcastInDim S625000 ![] bcast_S_S625000 (constantI S_ 32 200000#32)))
      (shapeCast S625000 (extractStridedSlice S1x625000 ![0, 0] x5 slices_S2x625000_S1x625000_0_0) shapeCasts_S1x625000_S625000))

/-- Every node's in-degree, counted in 32-bit integers. -/
def degI (x5 : S2x625000.Idx → BitVec 32) : S200000.Idx → BitVec 32 :=
  Host.scatter scatter_S200000_S625000x1_S625000_n_0_0_1 IntOp.addi
    (broadcastInDim S200000 ![] bcast_S_S200000 (constantI S_ 32 0#32)) (colIdx x5)
    (broadcastInDim S625000 ![] bcast_S_S625000 (constantI S_ 32 1#32))

/-- The in-degree as a float. -/
def degF (x5 : S2x625000.Idx → BitVec 32) : S200000.Idx → EReal :=
  sitofp (F := Ideal) .f32 (degI x5)

/-- The reciprocal of the degree clamped below by one, as a column. -/
def invDeg (x5 : S2x625000.Idx → BitVec 32) : S200000x1.Idx → EReal :=
  shapeCast S200000x1
    (Host.divf (F := Ideal) (φ := .f32) (broadcastInDim S200000 ![] bcast_S_S200000 (constant (F := Ideal) S_ .f32 0x3F800000#32))
      (maximumf (F := Ideal) (φ := .f32) (broadcastInDim S200000 ![] bcast_S_S200000 (id (constant (F := Ideal) S_ .f32 0x3F800000#32)))
        (degF x5)))
    shapeCasts_S200000_S200000x1

/-- Every node's bucket word, min(degree, 4). -/
def bucketW (x5 : S2x625000.Idx → BitVec 32) : S200000.Idx → BitVec 32 :=
  minsi (degI x5) (broadcastInDim S200000 ![] bcast_S_S200000 (constantI S_ 32 4#32))

/-- The one-hot row of every node's bucket. -/
def mask (x5 : S2x625000.Idx → BitVec 32) : S200000x5.Idx → EReal :=
  uitofp (F := Ideal) .f32
    (cmpi .eq (broadcastInDim S200000x5 ![0, 1] bcast_S200000x1_S200000x5_0_1
        (broadcastInDim S200000x1 ![0] bcast_S200000_S200000x1_0 (bucketW x5)))
      (broadcastInDim S200000x5 ![0, 1] bcast_S1x5_S200000x5_0_1 (iotaInDim S1x5 32 1)))

/-- The neighbour sums, narrowed. -/
def nsum (x0 : S200000x128.Idx → EReal) (x5 : S2x625000.Idx → BitVec 32) : S200000x128.Idx → EReal :=
  truncf (F := Ideal) (φ := .f32) .bf16
    (Host.scatterAdd (F := Ideal) (φ := .f32) scatter_S200000x128_S625000x1_S625000x128_1_0_0_1
      (broadcastInDim S200000x128 ![] bcast_S_S200000x128 (constant (F := Ideal) S_ .f32 0x00000000#32)) (colIdx x5)
      (Host.gather gather_S200000x128_S625000x1_S625000x128_1_0_n_n_0_1_1128 x0 (rowIdx x5)))
    bitsLt_bf16_f32

/-- The stacked weight table [256, 640], narrowed: the neighbour stack over the self stack, each laid input-feature-major
    with bucket b's outputs in columns 128·b … 128·b + 127. -/
def wcat (x1 x3 : S5x128x128.Idx → EReal) : S256x640.Idx → EReal :=
  truncf (F := Ideal) (φ := .f32) .bf16
    (concatenate S256x640 0
      [⟨S128x640, shapeCast S128x640 (transpose S128x5x128 [2, 0, 1] x1 transposes_S5x128x128_S128x5x128_2_0_1) shapeCasts_S128x5x128_S128x640⟩,
       ⟨S128x640, shapeCast S128x640 (transpose S128x5x128 [2, 0, 1] x3 transposes_S5x128x128_S128x5x128_2_0_1) shapeCasts_S128x5x128_S128x640⟩]
      concatenates_S128x640_S128x640_S256x640_d0)
    bitsLt_bf16_f32

/-- The summed bias table. -/
def biasCat (x2 x4 : S5x128.Idx → EReal) : S5x128.Idx → EReal :=
  addf (F := Ideal) (φ := .f32) x2 x4

variable (m : (ℓ : Loc nD τ sig) → Buf (Elt Ideal) ℓ)

set_option maxHeartbeats 4000000 in
set_option maxRecDepth 8192 in
/-- Window 0's array at region entry: the narrowed neighbour sums. -/
theorem V_v26 (c : Dev nD) : V m c main_v26 = nsum (m ((c : Thread nD τ).loc main_arg0)) (m ((c : Thread nD τ).loc main_arg5)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

set_option maxHeartbeats 4000000 in
set_option maxRecDepth 8192 in
/-- Window 2's array at region entry: the reciprocal-degree column. -/
theorem V_v12 (c : Dev nD) : V m c main_v12 = invDeg (m ((c : Thread nD τ).loc main_arg5)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

set_option maxHeartbeats 4000000 in
set_option maxRecDepth 8192 in
/-- Window 4's array at region entry: the stacked weight table. -/
theorem V_v32 (c : Dev nD) : V m c main_v32 = wcat (m ((c : Thread nD τ).loc main_arg1)) (m ((c : Thread nD τ).loc main_arg3)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

set_option maxHeartbeats 4000000 in
set_option maxRecDepth 8192 in
/-- Window 5's array at region entry: the summed bias table. -/
theorem V_v33 (c : Dev nD) : V m c main_v33 = biasCat (m ((c : Thread nD τ).loc main_arg2)) (m ((c : Thread nD τ).loc main_arg4)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

end Cert.KernelIdeal.HostArrays

end
-- ==== Proof.HostMask.lean ====
/-
  The one-hot mask the kernel's host code prepares, as the region finds it: row n is the indicator of node n's bucket
  min(in-degree, 4) among the five buckets, computed by comparing the bucket word, repeated along the row, with 0, 1, 2, 3, 4.

  The comparison is a called function of the program; each of its values passes through the buffer that holds it, a
  transport along the equation between the buffer's type and the value's that is the identity whenever it is undone at once.
-/
import proofs.«149878_j936302871077_2_alg».proof.Proof.HostArrays

noncomputable section

namespace Cert.KernelIdeal.HostArrays

open Cert.KernelIdeal Cert.KernelIdeal.Gen
open Idealize.ShloMosaic Idealize.ShloMosaic.TcCoe Idealize.SL.Sem Idealize.ShloMosaic.StableHlo

/-- A value stored at a typed reference and read back at once is the value. -/
theorem ofBuf_toBuf {sig : RefSig} {Val : EltTy → Type} {T : BufTy} (x : TRef sig T) (v : T.Contents Val) :
    x.ofBuf (x.toBuf v) = v := by
  obtain ⟨r, h, hd, hs⟩ := x
  subst h
  rfl

/-- Storing the mask at its buffer changes nothing: the buffer's type is the mask's. -/
theorem toBuf_v15 (h : main_v15.ty = (⟨S200000x5, .f32⟩ : BufTy)) (hd : main_v15.space ≠ .host) (hs : main_v15.isScoped = false)
    (v : (⟨S200000x5, .f32⟩ : BufTy).Contents (Elt Ideal)) :
    (TRef.of (sig := sig) (T := ⟨S200000x5, .f32⟩) main_v15 h hd hs).toBuf v = v := rfl

/-- Reading the bucket words from their buffer changes nothing. -/
theorem ofBuf_v14 (h : main_v14.ty = (⟨S200000, .i32⟩ : BufTy)) (hd : main_v14.space ≠ .host) (hs : main_v14.isScoped = false)
    (v : main_v14.ty.Contents (Elt Ideal)) :
    (TRef.of (sig := sig) (T := ⟨S200000, .i32⟩) main_v14 h hd hs).ofBuf v = v := rfl

variable (m : (ℓ : Loc nD τ sig) → Buf (Elt Ideal) ℓ)

set_option maxHeartbeats 8000000 in
set_option maxRecDepth 8192 in
/-- Window 3's array at region entry: the one-hot mask. -/
theorem V_v15 (c : Dev nD) : V m c main_v15 = mask (m ((c : Thread nD τ).loc main_arg5)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  all_goals simp only [ofBuf_toBuf, toBuf_v15, ofBuf_v14]
  all_goals rfl

end Cert.KernelIdeal.HostArrays

end
-- ==== Proof.KernelValue.lean ====
/-
  From the kernel's tiles to its result array.

  The grid has 100 points; point t works on rows 2000·t … 2000·t + 1999 of the five row-blocked arrays (neighbour sums,
  features, reciprocal-degree column, mask, result) and on the whole weight table and bias table. The block it writes back
  is, entry by entry, the masked five-term sum of the whole arrays at row 2000·t + p: so it is block t of ONE whole-array
  function, and since the 100 blocks tile the result, the result array ends holding that function.
-/
import proofs.«149878_j936302871077_2_alg».proof.Proof.Gen.KernelIdeal.Value
import proofs.«149878_j936302871077_2_alg».proof.Proof.KernelBlocks
import proofs.«149878_j936302871077_2_alg».proof.Proof.ArrEntry
import proofs.«149878_j936302871077_2_alg».proof.Proof.HostArrays
import proofs.«149878_j936302871077_2_alg».proof.Proof.HostMask
import Idealize.ShloMosaic.Lib.Pipeline.Value
import Idealize.ShloMosaic.Lib.ValueIdx

noncomputable section

namespace Cert.KernelIdeal.KernelValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 100 grid points: the five row-blocked windows sit at block (t, 0), the weight
    table and the bias table at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array row that row p of point t's blocks is: 2000·t + p. -/
def row (t : Fin cfg0.N) (p : Fin 2000) : Fin 200000 :=
  ⟨t.val * 2000 + p.val, by have h : cfg0.N = 100 := N_0; have := t.isLt; have := p.isLt; omega⟩

/-! ## The arrays the windows stage

Window w stages the array its specification names, `Pipeline.arrRef spec0 w`. That reference IS the buffer the host code
wrote (a fact about two references, which never looks at their contents), so the staged array is the prepared one. -/

/-- Whatever reference equals window 0's buffer holds the narrowed neighbour sums. -/
theorem V0_of (c : Dev nD) (r : Ref sig .tc) (h : r = main_v26) :
    HEq (V m c r) (HostArrays.nsum (m ((c : Thread nD τ).loc main_arg0)) (m ((c : Thread nD τ).loc main_arg5)) : S200000x128.Idx → EReal) := by
  subst h
  exact heq_of_eq (HostArrays.V_v26 m c)

/-- Window 0 stages the narrowed neighbour sums. -/
theorem V0 (c : Dev nD) :
    V m c (Pipeline.arrRef spec0 (0 : Fin cfg0.W)) = (HostArrays.nsum (m ((c : Thread nD τ).loc main_arg0)) (m ((c : Thread nD τ).loc main_arg5)) : S200000x128.Idx → EReal) :=
  eq_of_heq (V0_of m c (Pipeline.arrRef spec0 (0 : Fin cfg0.W)) rfl)

/-- Whatever reference equals window 1's buffer holds the node features. -/
theorem V1_of (c : Dev nD) (r : Ref sig .tc) (h : r = main_arg0) :
    HEq (V m c r) ((m ((c : Thread nD τ).loc main_arg0)) : S200000x128.Idx → EReal) := by
  subst h
  exact heq_of_eq (V_main_arg0 m c)

/-- Window 1 stages the node features. -/
theorem V1 (c : Dev nD) :
    V m c (Pipeline.arrRef spec0 (1 : Fin cfg0.W)) = ((m ((c : Thread nD τ).loc main_arg0)) : S200000x128.Idx → EReal) :=
  eq_of_heq (V1_of m c (Pipeline.arrRef spec0 (1 : Fin cfg0.W)) rfl)

/-- Whatever reference equals window 2's buffer holds the reciprocal-degree column. -/
theorem V2_of (c : Dev nD) (r : Ref sig .tc) (h : r = main_v12) :
    HEq (V m c r) (HostArrays.invDeg (m ((c : Thread nD τ).loc main_arg5)) : S200000x1.Idx → EReal) := by
  subst h
  exact heq_of_eq (HostArrays.V_v12 m c)

/-- Window 2 stages the reciprocal-degree column. -/
theorem V2 (c : Dev nD) :
    V m c (Pipeline.arrRef spec0 (2 : Fin cfg0.W)) = (HostArrays.invDeg (m ((c : Thread nD τ).loc main_arg5)) : S200000x1.Idx → EReal) :=
  eq_of_heq (V2_of m c (Pipeline.arrRef spec0 (2 : Fin cfg0.W)) rfl)

/-- Whatever reference equals window 3's buffer holds the one-hot mask. -/
theorem V3_of (c : Dev nD) (r : Ref sig .tc) (h : r = main_v15) :
    HEq (V m c r) (HostArrays.mask (m ((c : Thread nD τ).loc main_arg5)) : S200000x5.Idx → EReal) := by
  subst h
  exact heq_of_eq (HostArrays.V_v15 m c)

/-- Window 3 stages the one-hot mask. -/
theorem V3 (c : Dev nD) :
    V m c (Pipeline.arrRef spec0 (3 : Fin cfg0.W)) = (HostArrays.mask (m ((c : Thread nD τ).loc main_arg5)) : S200000x5.Idx → EReal) :=
  eq_of_heq (V3_of m c (Pipeline.arrRef spec0 (3 : Fin cfg0.W)) rfl)

/-- Whatever reference equals window 4's buffer holds the stacked weight table. -/
theorem V4_of (c : Dev nD) (r : Ref sig .tc) (h : r = main_v32) :
    HEq (V m c r) (HostArrays.wcat (m ((c : Thread nD τ).loc main_arg1)) (m ((c : Thread nD τ).loc main_arg3)) : S256x640.Idx → EReal) := by
  subst h
  exact heq_of_eq (HostArrays.V_v32 m c)

/-- Window 4 stages the stacked weight table. -/
theorem V4 (c : Dev nD) :
    V m c (Pipeline.arrRef spec0 (4 : Fin cfg0.W)) = (HostArrays.wcat (m ((c : Thread nD τ).loc main_arg1)) (m ((c : Thread nD τ).loc main_arg3)) : S256x640.Idx → EReal) :=
  eq_of_heq (V4_of m c (Pipeline.arrRef spec0 (4 : Fin cfg0.W)) rfl)

/-- Whatever reference equals window 5's buffer holds the summed bias table. -/
theorem V5_of (c : Dev nD) (r : Ref sig .tc) (h : r = main_v33) :
    HEq (V m c r) (HostArrays.biasCat (m ((c : Thread nD τ).loc main_arg2)) (m ((c : Thread nD τ).loc main_arg4)) : S5x128.Idx → EReal) := by
  subst h
  exact heq_of_eq (HostArrays.V_v33 m c)

/-- Window 5 stages the summed bias table. -/
theorem V5 (c : Dev nD) :
    V m c (Pipeline.arrRef spec0 (5 : Fin cfg0.W)) = (HostArrays.biasCat (m ((c : Thread nD τ).loc main_arg2)) (m ((c : Thread nD τ).loc main_arg4)) : S5x128.Idx → EReal) :=
  eq_of_heq (V5_of m c (Pipeline.arrRef spec0 (5 : Fin cfg0.W)) rfl)

/-! ## A window's block is rows of its array -/

/-- Row x₀ of window 0's block at point t is row 2000·t + x₀ of the narrowed neighbour sums. -/
theorem iblk0 (c : Dev nD) (t : Fin cfg0.N) (x : S2000x128.Idx) (k : S200000x128.Idx)
    (hk0 : (k 0).val = t.val * 2000 + (x 0).val) (hk1 : (k 1).val = (x 1).val) :
    (iblk m c 0 t : Vec Ideal S2000x128 .bf16) x = (HostArrays.nsum (m ((c : Thread nD τ).loc main_arg0)) (m ((c : Thread nD τ).loc main_arg5)) : S200000x128.Idx → EReal) k := by
  obtain ⟨e0, e1, -⟩ := idx_facts t
  unfold iblk
  rw [View.read_apply]
  have hidx : ((cfg0.win 0).blk t).view.emb x = k := by
    funext a
    apply Fin.ext
    match a with
    | ⟨0, _⟩ => show win0_0.index t (0 : Fin 2) * 2000 + 1 * (x 0).val = (k 0).val; rw [e0, hk0]; omega
    | ⟨1, _⟩ => show win0_0.index t (1 : Fin 2) * 128 + 1 * (x 1).val = (k 1).val; rw [e1, hk1]; omega
  rw [hidx, V0 m c]
  rfl

/-- Row x₀ of window 1's block at point t is row 2000·t + x₀ of the node features. -/
theorem iblk1 (c : Dev nD) (t : Fin cfg0.N) (x : S2000x128.Idx) (k : S200000x128.Idx)
    (hk0 : (k 0).val = t.val * 2000 + (x 0).val) (hk1 : (k 1).val = (x 1).val) :
    (iblk m c 1 t : Vec Ideal S2000x128 .f32) x = ((m ((c : Thread nD τ).loc main_arg0)) : S200000x128.Idx → EReal) k := by
  obtain ⟨-, -, e0, e1, -⟩ := idx_facts t
  unfold iblk
  rw [View.read_apply]
  have hidx : ((cfg0.win 1).blk t).view.emb x = k := by
    funext a
    apply Fin.ext
    match a with
    | ⟨0, _⟩ => show win0_1.index t (0 : Fin 2) * 2000 + 1 * (x 0).val = (k 0).val; rw [e0, hk0]; omega
    | ⟨1, _⟩ => show win0_1.index t (1 : Fin 2) * 128 + 1 * (x 1).val = (k 1).val; rw [e1, hk1]; omega
  rw [hidx, V1 m c]
  rfl

/-- Row x₀ of window 2's block at point t is row 2000·t + x₀ of the reciprocal-degree column. -/
theorem iblk2 (c : Dev nD) (t : Fin cfg0.N) (x : S2000x1.Idx) (k : S200000x1.Idx)
    (hk0 : (k 0).val = t.val * 2000 + (x 0).val) (hk1 : (k 1).val = (x 1).val) :
    (iblk m c 2 t : Vec Ideal S2000x1 .f32) x = (HostArrays.invDeg (m ((c : Thread nD τ).loc main_arg5)) : S200000x1.Idx → EReal) k := by
  obtain ⟨-, -, -, -, e0, e1, -⟩ := idx_facts t
  unfold iblk
  rw [View.read_apply]
  have hidx : ((cfg0.win 2).blk t).view.emb x = k := by
    funext a
    apply Fin.ext
    match a with
    | ⟨0, _⟩ => show win0_2.index t (0 : Fin 2) * 2000 + 1 * (x 0).val = (k 0).val; rw [e0, hk0]; omega
    | ⟨1, _⟩ => show win0_2.index t (1 : Fin 2) * 1 + 1 * (x 1).val = (k 1).val; rw [e1, hk1]; omega
  rw [hidx, V2 m c]
  rfl

/-- Row x₀ of window 3's block at point t is row 2000·t + x₀ of the one-hot mask. -/
theorem iblk3 (c : Dev nD) (t : Fin cfg0.N) (x : S2000x5.Idx) (k : S200000x5.Idx)
    (hk0 : (k 0).val = t.val * 2000 + (x 0).val) (hk1 : (k 1).val = (x 1).val) :
    (iblk m c 3 t : Vec Ideal S2000x5 .f32) x = (HostArrays.mask (m ((c : Thread nD τ).loc main_arg5)) : S200000x5.Idx → EReal) k := by
  obtain ⟨-, -, -, -, -, -, e0, e1, -⟩ := idx_facts t
  unfold iblk
  rw [View.read_apply]
  have hidx : ((cfg0.win 3).blk t).view.emb x = k := by
    funext a
    apply Fin.ext
    match a with
    | ⟨0, _⟩ => show win0_3.index t (0 : Fin 2) * 2000 + 1 * (x 0).val = (k 0).val; rw [e0, hk0]; omega
    | ⟨1, _⟩ => show win0_3.index t (1 : Fin 2) * 5 + 1 * (x 1).val = (k 1).val; rw [e1, hk1]; omega
  rw [hidx, V3 m c]
  rfl

/-- Window 4's one block is the whole of the stacked weight table, at every point. -/
theorem iblk4 (c : Dev nD) (t : Fin cfg0.N) (y : S256x640.Idx) :
    (iblk m c 4 t : Vec Ideal S256x640 .bf16) y = (HostArrays.wcat (m ((c : Thread nD τ).loc main_arg1)) (m ((c : Thread nD τ).loc main_arg3)) : S256x640.Idx → EReal) y := by
  obtain ⟨-, -, -, -, -, -, -, -, e0, e1, -⟩ := idx_facts t
  unfold iblk
  rw [View.read_apply]
  have hidx : ((cfg0.win 4).blk t).view.emb y = y := by
    funext a
    apply Fin.ext
    match a with
    | ⟨0, _⟩ => show win0_4.index t (0 : Fin 2) * 256 + 1 * (y 0).val = (y 0).val; rw [e0]; omega
    | ⟨1, _⟩ => show win0_4.index t (1 : Fin 2) * 640 + 1 * (y 1).val = (y 1).val; rw [e1]; omega
  rw [hidx, V4 m c]
  rfl

/-- Window 5's one block is the whole of the summed bias table, at every point. -/
theorem iblk5 (c : Dev nD) (t : Fin cfg0.N) (y : S5x128.Idx) :
    (iblk m c 5 t : Vec Ideal S5x128 .f32) y = (HostArrays.biasCat (m ((c : Thread nD τ).loc main_arg2)) (m ((c : Thread nD τ).loc main_arg4)) : S5x128.Idx → EReal) y := by
  obtain ⟨-, -, -, -, -, -, -, -, -, -, e0, e1, -⟩ := idx_facts t
  unfold iblk
  rw [View.read_apply]
  have hidx : ((cfg0.win 5).blk t).view.emb y = y := by
    funext a
    apply Fin.ext
    match a with
    | ⟨0, _⟩ => show win0_5.index t (0 : Fin 2) * 5 + 1 * (y 0).val = (y 0).val; rw [e0]; omega
    | ⟨1, _⟩ => show win0_5.index t (1 : Fin 2) * 128 + 1 * (y 1).val = (y 1).val; rw [e1]; omega
  rw [hidx, V5 m c]
  rfl

/-! ## What a point writes back, and the result array -/

/-- The result as one function of the prepared arrays. -/
def arr (c : Dev nD) : S200000x128.Idx → EReal :=
  Combine.arrOut (HostArrays.mask (m ((c : Thread nD τ).loc main_arg5))) (HostArrays.nsum (m ((c : Thread nD τ).loc main_arg0)) (m ((c : Thread nD τ).loc main_arg5))) (m ((c : Thread nD τ).loc main_arg0)) (HostArrays.invDeg (m ((c : Thread nD τ).loc main_arg5)))
    (HostArrays.wcat (m ((c : Thread nD τ).loc main_arg1)) (m ((c : Thread nD τ).loc main_arg3))) (HostArrays.biasCat (m ((c : Thread nD τ).loc main_arg2)) (m ((c : Thread nD τ).loc main_arg4)))

/-- WHAT POINT t WRITES BACK is block t of that function. -/
theorem flushed_eq (c : Dev nD) (t : Fin cfg0.N) :
    (dats m 0 c).flushed 6 t = ((cfg0.win 6).blk t).view.read (Elt Ideal) (arr m c) := by
  rw [Value.flushed6]
  obtain ⟨-, -, -, -, -, -, -, -, -, -, -, -, e0, e1⟩ := idx_facts t
  -- the body's block and the target array as opaque values while the window's cut and read are peeled off
  generalize hB : out0_6 (iblk m c 0 t) (iblk m c 1 t) (iblk m c 2 t) (iblk m c 3 t) (iblk m c 4 t) (iblk m c 5 t) = B
  generalize hG : arr m c = G
  funext j
  obtain ⟨p, o, rfl⟩ : ∃ (p : Fin 2000) (o : Fin 128), j = ix2 p o := ⟨j 0, j 1, eq_ix2 j⟩
  show B (ix2 p o) = G (((cfg0.win 6).blk t).view.emb (ix2 p o))
  have hemb : ((cfg0.win 6).blk t).view.emb (ix2 p o) = ix2 (row t p) o := by
    funext a
    apply Fin.ext
    match a with
    | ⟨0, _⟩ => show win0_6.index t (0 : Fin 2) * 2000 + 1 * p.val = t.val * 2000 + p.val; rw [e0]; omega
    | ⟨1, _⟩ => show win0_6.index t (1 : Fin 2) * 128 + 1 * o.val = o.val; rw [e1]; omega
  rw [hemb, ← hB, ← hG]
  unfold arr
  rw [Combine.arrOut_apply]
  exact KernelBlocks.entry_of_rows (iblk m c 0 t) (iblk m c 1 t) (iblk m c 2 t) (iblk m c 3 t) (iblk m c 4 t) (iblk m c 5 t)
    (HostArrays.mask (m ((c : Thread nD τ).loc main_arg5))) (HostArrays.nsum (m ((c : Thread nD τ).loc main_arg0)) (m ((c : Thread nD τ).loc main_arg5))) (m ((c : Thread nD τ).loc main_arg0)) (HostArrays.invDeg (m ((c : Thread nD τ).loc main_arg5)))
    (HostArrays.wcat (m ((c : Thread nD τ).loc main_arg1)) (m ((c : Thread nD τ).loc main_arg3))) (HostArrays.biasCat (m ((c : Thread nD τ).loc main_arg2)) (m ((c : Thread nD τ).loc main_arg4))) p o (row t p)
    (fun k => iblk0 m c t (ix2 p k) (ix2 (row t p) k) rfl rfl) (fun k => iblk1 m c t (ix2 p k) (ix2 (row t p) k) rfl rfl)
    (iblk2 m c t (ix2 p (0 : Fin 1)) (ix2 (row t p) (0 : Fin 1)) rfl rfl) (fun b => iblk3 m c t (ix2 p b) (ix2 (row t p) b) rfl rfl)
    (iblk4 m c t) (iblk5 m c t)

/-- An index of the result is in point t's block iff each coordinate is in the block's range on its axis. -/
theorem mem_blk (t : Fin cfg0.N) (i : S200000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v34).slice (win0_6.rect t)).set ↔ _
  rw [View.set_slice_whole, Rect.mem_set_unit]
  exact Iff.rfl

/-- Every index of the result is in the block of the point its row falls in. -/
theorem cover (i : S200000x128.Idx) : ∃ t : Fin cfg0.N, (cfg0.win 6).flush t = true ∧ i ∈ ((cfg0.win 6).blk t).view.set := by
  have hN : cfg0.N = 100 := N_0
  have hi0 : (i 0).val < 200000 := (i 0).isLt
  have hi1 : (i 1).val < 128 := (i 1).isLt
  let t : Fin cfg0.N := ⟨(i 0).val / 2000, by omega⟩
  obtain ⟨-, -, -, -, -, -, -, -, -, -, -, -, e0, e1⟩ := idx_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 128 ≤ (i 1).val ∧ (i 1).val < win0_6.index t (1 : Fin 2) * 128 + 128; rw [e1]; omega

/-- THE RESULT ARRAY after the run is that function. -/
theorem final6 (c : Dev nD) : (dats m 0 c).arrAt 6 cfg0.N = arr m c :=
  (dats m 0 c).arrAt_eq_of_cover 6 (arr m c) (fun t _ => flushed_eq m c t) cover

end Cert.KernelIdeal.KernelValue

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibBucketTables.lean ====
/-
  Three small tables a host program prepares from its arguments, read at an entry on the extended reals.

  • The wide weight table. Two stacks nw, rw : [5, 128, 128] (bucket b, output o, input d) are each rotated to [128, 5, 128]
    (input, bucket, output), flattened to [128, 640] (input d, column b * 128 + o) and stacked along axis 0 into [256, 640]:
    rows 0 … 127 hold nw and rows 128 … 255 hold rw, entry (d, b * 128 + o) resp. (128 + d, b * 128 + o) being the stack's
    entry (b, o, d). A change of float format on top of it is the identity on the extended reals.
  • The one-hot mask. A word per node v : [N] is spread over [N, 5] and compared for equality with the column number:
    entry (n, b) of the mask, converted to a float, is 1 where v[n] is the word b and 0 elsewhere.
  • The reciprocal column. For deg : [N], the quotient 1 / max(1, deg) viewed as a column [N, 1].
  • The entrywise sum of two tables.
  Every layout side condition is a hypothesis, so the lemmas apply whatever proof a program's text carries.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«149878_j936302871077_2_alg».proof.Proof.LibHostRead

namespace BucketTables

open Idealize.ShloMosaic Idealize.ShloMosaic.ValueIdx

/-! ## A change of float format and a sum, at an index -/

/-- A truncation of the float format is the identity on the extended reals, at every index. -/
theorem truncf_apply {s : Shape} {φ : FTy} (ψ : FTy) (v : FVec Ideal s φ) (h : ψ.bits < φ.bits) (i : s.Idx) :
    truncf ψ v h i = v i := rfl

/-- The entrywise sum of two arrays at an index is the sum of the entries. -/
theorem addf_apply {s : Shape} {φ : FTy} (x y : FVec Ideal s φ) (i : s.Idx) : addf x y i = x i + y i := rfl

/-- The sum of two bias tables [B, O] at entry (b, o). -/
theorem bias_sum_apply {B O : Nat} {φ : FTy} (nb rb : FVec Ideal ⟨2, ![B, O]⟩ φ) (b : Fin B) (o : Fin O) :
    addf nb rb (ix2 b o) = nb (ix2 b o) + rb (ix2 b o) := rfl

/-! ## The wide weight table -/

section Wide
variable {α : Type}

/-- A stack [5, 128, 128] (bucket, output, input) rotated to [128, 5, 128] (input, bucket, output) by the permutation
    [2, 0, 1] reads, at (d, b, o), the stack at (b, o, d). -/
theorem rot_apply (w : (⟨3, ![5, 128, 128]⟩ : Shape).Idx → α)
    (ht : (⟨3, ![5, 128, 128]⟩ : Shape).Transposes [2, 0, 1] ⟨3, ![128, 5, 128]⟩) (d : Fin 128) (b : Fin 5) (o : Fin 128) :
    transpose ⟨3, ![128, 5, 128]⟩ [2, 0, 1] w ht (ix3 d b o) = w (ix3 b o d) :=
  transpose_apply _ w ht _ _ fun e => match e with | ⟨0, _⟩ => rfl | ⟨1, _⟩ => rfl | ⟨2, _⟩ => rfl

/-- The rotated stack flattened to [128, 640]: entry (d, c) with c = b * 128 + o is the stack at (b, o, d). -/
theorem flat_apply (w : (⟨3, ![5, 128, 128]⟩ : Shape).Idx → α)
    (ht : (⟨3, ![5, 128, 128]⟩ : Shape).Transposes [2, 0, 1] ⟨3, ![128, 5, 128]⟩)
    (hs : (⟨3, ![128, 5, 128]⟩ : Shape).ShapeCasts ⟨2, ![128, 640]⟩)
    (d : Fin 128) (b : Fin 5) (o : Fin 128) (c : Fin 640) (hc : c.val = b.val * 128 + o.val) :
    shapeCast ⟨2, ![128, 640]⟩ (transpose ⟨3, ![128, 5, 128]⟩ [2, 0, 1] w ht) hs (ix2 d c) = w (ix3 b o d) := by
  refine (shapeCast_apply _ hs (ix2 d c) (ix3 d b o) ?_).trans (rot_apply w ht d b o)
  rw [Shape.rowMajor_val_three, Shape.rowMajor_val_two]
  show (d.val * 5 + b.val) * 128 + o.val = d.val * 640 + c.val
  omega

/-- The two flattened stacks laid one under the other: a row r = d of the upper half reads the first stack. -/
theorem wcat_upper_apply (nw rw : (⟨3, ![5, 128, 128]⟩ : Shape).Idx → α)
    (ht₁ ht₂ : (⟨3, ![5, 128, 128]⟩ : Shape).Transposes [2, 0, 1] ⟨3, ![128, 5, 128]⟩)
    (hs₁ hs₂ : (⟨3, ![128, 5, 128]⟩ : Shape).ShapeCasts ⟨2, ![128, 640]⟩)
    (hc : Shape.Concatenates [⟨2, ![128, 640]⟩, ⟨2, ![128, 640]⟩] ⟨2, ![256, 640]⟩ 0)
    (d : Fin 128) (b : Fin 5) (o : Fin 128) (r : Fin 256) (c : Fin 640) (hr : r.val = d.val)
    (hcv : c.val = b.val * 128 + o.val) :
    concatenate ⟨2, ![256, 640]⟩ 0
        [⟨⟨2, ![128, 640]⟩, shapeCast ⟨2, ![128, 640]⟩ (transpose ⟨3, ![128, 5, 128]⟩ [2, 0, 1] nw ht₁) hs₁⟩,
         ⟨⟨2, ![128, 640]⟩, shapeCast ⟨2, ![128, 640]⟩ (transpose ⟨3, ![128, 5, 128]⟩ [2, 0, 1] rw ht₂) hs₂⟩] hc (ix2 r c)
      = nw (ix3 b o d) := by
  refine (concatenate_pair_apply_left (t := ⟨2, ![256, 640]⟩) (s₁ := ⟨2, ![128, 640]⟩) (s₂ := ⟨2, ![128, 640]⟩)
    (0 : Fin 2) _ _ hc (ix2 r c) rfl (ix2 d c) fun e =>
    match e with | ⟨0, _⟩ => hr.symm | ⟨1, _⟩ => rfl).trans ?_
  exact flat_apply nw ht₁ hs₁ d b o c hcv

/-- … and a row r = 128 + d of the lower half reads the second stack. -/
theorem wcat_lower_apply (nw rw : (⟨3, ![5, 128, 128]⟩ : Shape).Idx → α)
    (ht₁ ht₂ : (⟨3, ![5, 128, 128]⟩ : Shape).Transposes [2, 0, 1] ⟨3, ![128, 5, 128]⟩)
    (hs₁ hs₂ : (⟨3, ![128, 5, 128]⟩ : Shape).ShapeCasts ⟨2, ![128, 640]⟩)
    (hc : Shape.Concatenates [⟨2, ![128, 640]⟩, ⟨2, ![128, 640]⟩] ⟨2, ![256, 640]⟩ 0)
    (d : Fin 128) (b : Fin 5) (o : Fin 128) (r : Fin 256) (c : Fin 640) (hr : r.val = 128 + d.val)
    (hcv : c.val = b.val * 128 + o.val) :
    concatenate ⟨2, ![256, 640]⟩ 0
        [⟨⟨2, ![128, 640]⟩, shapeCast ⟨2, ![128, 640]⟩ (transpose ⟨3, ![128, 5, 128]⟩ [2, 0, 1] nw ht₁) hs₁⟩,
         ⟨⟨2, ![128, 640]⟩, shapeCast ⟨2, ![128, 640]⟩ (transpose ⟨3, ![128, 5, 128]⟩ [2, 0, 1] rw ht₂) hs₂⟩] hc (ix2 r c)
      = rw (ix3 b o d) := by
  refine (concatenate_pair_apply_right (t := ⟨2, ![256, 640]⟩) (s₁ := ⟨2, ![128, 640]⟩) (s₂ := ⟨2, ![128, 640]⟩)
    (0 : Fin 2) _ _ hc (ix2 r c) rfl rfl (ix2 d c)
    (fun e he => match e, he with | ⟨0, _⟩, he => absurd rfl he | ⟨1, _⟩, _ => rfl) ?_).trans ?_
  · show d.val + 128 = r.val
    omega
  · exact flat_apply rw ht₂ hs₂ d b o c hcv

end Wide

/-! ## The wide weight table at the entry written out, and under a change of float format -/

section WideAt
variable {α : Type}

/-- The upper half at the entry written out: row d, column b * 128 + o holds the first stack's entry (b, o, d). -/
theorem wcat_upper_at (nw rw : (⟨3, ![5, 128, 128]⟩ : Shape).Idx → α)
    (ht₁ ht₂ : (⟨3, ![5, 128, 128]⟩ : Shape).Transposes [2, 0, 1] ⟨3, ![128, 5, 128]⟩)
    (hs₁ hs₂ : (⟨3, ![128, 5, 128]⟩ : Shape).ShapeCasts ⟨2, ![128, 640]⟩)
    (hc : Shape.Concatenates [⟨2, ![128, 640]⟩, ⟨2, ![128, 640]⟩] ⟨2, ![256, 640]⟩ 0)
    (d : Fin 128) (b : Fin 5) (o : Fin 128) :
    concatenate ⟨2, ![256, 640]⟩ 0
        [⟨⟨2, ![128, 640]⟩, shapeCast ⟨2, ![128, 640]⟩ (transpose ⟨3, ![128, 5, 128]⟩ [2, 0, 1] nw ht₁) hs₁⟩,
         ⟨⟨2, ![128, 640]⟩, shapeCast ⟨2, ![128, 640]⟩ (transpose ⟨3, ![128, 5, 128]⟩ [2, 0, 1] rw ht₂) hs₂⟩] hc
        (ix2 (⟨d.val, by have := d.isLt; omega⟩ : Fin 256)
          (⟨b.val * 128 + o.val, by have := b.isLt; have := o.isLt; omega⟩ : Fin 640))
      = nw (ix3 b o d) :=
  wcat_upper_apply nw rw ht₁ ht₂ hs₁ hs₂ hc d b o _ _ rfl rfl

/-- The lower half at the entry written out: row 128 + d, column b * 128 + o holds the second stack's entry (b, o, d). -/
theorem wcat_lower_at (nw rw : (⟨3, ![5, 128, 128]⟩ : Shape).Idx → α)
    (ht₁ ht₂ : (⟨3, ![5, 128, 128]⟩ : Shape).Transposes [2, 0, 1] ⟨3, ![128, 5, 128]⟩)
    (hs₁ hs₂ : (⟨3, ![128, 5, 128]⟩ : Shape).ShapeCasts ⟨2, ![128, 640]⟩)
    (hc : Shape.Concatenates [⟨2, ![128, 640]⟩, ⟨2, ![128, 640]⟩] ⟨2, ![256, 640]⟩ 0)
    (d : Fin 128) (b : Fin 5) (o : Fin 128) :
    concatenate ⟨2, ![256, 640]⟩ 0
        [⟨⟨2, ![128, 640]⟩, shapeCast ⟨2, ![128, 640]⟩ (transpose ⟨3, ![128, 5, 128]⟩ [2, 0, 1] nw ht₁) hs₁⟩,
         ⟨⟨2, ![128, 640]⟩, shapeCast ⟨2, ![128, 640]⟩ (transpose ⟨3, ![128, 5, 128]⟩ [2, 0, 1] rw ht₂) hs₂⟩] hc
        (ix2 (⟨128 + d.val, by have := d.isLt; omega⟩ : Fin 256)
          (⟨b.val * 128 + o.val, by have := b.isLt; have := o.isLt; omega⟩ : Fin 640))
      = rw (ix3 b o d) :=
  wcat_lower_apply nw rw ht₁ ht₂ hs₁ hs₂ hc d b o _ _ rfl rfl

end WideAt

/-- The wide table under a truncation of the float format, upper half: the same entry of the first stack. -/
theorem wcat_truncf_upper_apply (nw rw : FVec Ideal ⟨3, ![5, 128, 128]⟩ .f32)
    (ht₁ ht₂ : (⟨3, ![5, 128, 128]⟩ : Shape).Transposes [2, 0, 1] ⟨3, ![128, 5, 128]⟩)
    (hs₁ hs₂ : (⟨3, ![128, 5, 128]⟩ : Shape).ShapeCasts ⟨2, ![128, 640]⟩)
    (hc : Shape.Concatenates [⟨2, ![128, 640]⟩, ⟨2, ![128, 640]⟩] ⟨2, ![256, 640]⟩ 0)
    (ψ : FTy) (hbits : ψ.bits < FTy.f32.bits)
    (d : Fin 128) (b : Fin 5) (o : Fin 128) (r : Fin 256) (c : Fin 640) (hr : r.val = d.val)
    (hcv : c.val = b.val * 128 + o.val) :
    truncf (F := Ideal) (φ := .f32) ψ (concatenate ⟨2, ![256, 640]⟩ 0
        [⟨⟨2, ![128, 640]⟩, shapeCast ⟨2, ![128, 640]⟩ (transpose ⟨3, ![128, 5, 128]⟩ [2, 0, 1] nw ht₁) hs₁⟩,
         ⟨⟨2, ![128, 640]⟩, shapeCast ⟨2, ![128, 640]⟩ (transpose ⟨3, ![128, 5, 128]⟩ [2, 0, 1] rw ht₂) hs₂⟩] hc) hbits
        (ix2 r c)
      = nw (ix3 b o d) :=
  (truncf_apply ψ _ hbits _).trans (wcat_upper_apply nw rw ht₁ ht₂ hs₁ hs₂ hc d b o r c hr hcv)

/-- The wide table under a truncation of the float format, lower half: the same entry of the second stack. -/
theorem wcat_truncf_lower_apply (nw rw : FVec Ideal ⟨3, ![5, 128, 128]⟩ .f32)
    (ht₁ ht₂ : (⟨3, ![5, 128, 128]⟩ : Shape).Transposes [2, 0, 1] ⟨3, ![128, 5, 128]⟩)
    (hs₁ hs₂ : (⟨3, ![128, 5, 128]⟩ : Shape).ShapeCasts ⟨2, ![128, 640]⟩)
    (hc : Shape.Concatenates [⟨2, ![128, 640]⟩, ⟨2, ![128, 640]⟩] ⟨2, ![256, 640]⟩ 0)
    (ψ : FTy) (hbits : ψ.bits < FTy.f32.bits)
    (d : Fin 128) (b : Fin 5) (o : Fin 128) (r : Fin 256) (c : Fin 640) (hr : r.val = 128 + d.val)
    (hcv : c.val = b.val * 128 + o.val) :
    truncf (F := Ideal) (φ := .f32) ψ (concatenate ⟨2, ![256, 640]⟩ 0
        [⟨⟨2, ![128, 640]⟩, shapeCast ⟨2, ![128, 640]⟩ (transpose ⟨3, ![128, 5, 128]⟩ [2, 0, 1] nw ht₁) hs₁⟩,
         ⟨⟨2, ![128, 640]⟩, shapeCast ⟨2, ![128, 640]⟩ (transpose ⟨3, ![128, 5, 128]⟩ [2, 0, 1] rw ht₂) hs₂⟩] hc) hbits
        (ix2 r c)
      = rw (ix3 b o d) :=
  (truncf_apply ψ _ hbits _).trans (wcat_lower_apply nw rw ht₁ ht₂ hs₁ hs₂ hc d b o r c hr hcv)

/-! ## The one-hot mask -/

/-- Two arrays of words compared for equality and the one-bit result converted unsigned to a float: on the extended reals
    the entry is 1 where the words agree and 0 where they differ. -/
theorem eq_mask_apply {s : Shape} {w : Nat} {φ : FTy} (x y : IVec s w) (i : s.Idx) :
    uitofp (F := Ideal) φ (cmpi .eq x y) i = if x i = y i then (1 : EReal) else 0 := by
  show (((BitVec.ofBool (x i == y i)).toNat : ℝ) : EReal) = _
  by_cases h : x i = y i
  · simp [h]
  · simp [h]

/-- The one-hot mask of a word per node: v : [N] spread over [N, 5] through the column [N, 1], compared for equality with
    the column number (the count along axis 1 of a row [1, 5], repeated over [N, 5]), as a float: entry (n, b) is 1 where
    v[n] is the word b and 0 elsewhere. -/
theorem onehot_apply {N : Nat} {φ : FTy} (v : IVec ⟨1, ![N]⟩ 32)
    (h0 : (⟨1, ![N]⟩ : Shape).BroadcastsInDim ⟨2, ![N, 1]⟩ (![0] : Fin 1 → Fin 2))
    (h1 : (⟨2, ![N, 1]⟩ : Shape).BroadcastsInDim ⟨2, ![N, 5]⟩ (![0, 1] : Fin 2 → Fin 2))
    (h2 : (⟨2, ![1, 5]⟩ : Shape).BroadcastsInDim ⟨2, ![N, 5]⟩ (![0, 1] : Fin 2 → Fin 2)) (n : Fin N) (b : Fin 5) :
    uitofp (F := Ideal) φ (cmpi .eq (broadcastInDim ⟨2, ![N, 5]⟩ ![0, 1] h1 (broadcastInDim ⟨2, ![N, 1]⟩ ![0] h0 v))
        (broadcastInDim ⟨2, ![N, 5]⟩ ![0, 1] h2 (iotaInDim ⟨2, ![1, 5]⟩ 32 1))) (ix2 n b)
      = if v (ix1 n) = BitVec.ofNat 32 b.val then (1 : EReal) else 0 := by
  rw [eq_mask_apply, Hmu.Lib.bcastRows_apply v h0 h1 n b,
    Hmu.Lib.bcast_1b_ab_apply (iotaInDim ⟨2, ![1, 5]⟩ 32 1) h2 n b]
  rfl

/-! ## The reciprocal column -/

/-- The quotient 1 / max(1, deg) of a vector deg : [N], the ones being a literal scalar repeated over [N], viewed as a
    column [N, 1]: entry (n, 0) is 1 / max(1, deg[n]). -/
theorem recip_col_apply {N : Nat} (deg : FVec Ideal ⟨1, ![N]⟩ .f32)
    (hb hb' : (⟨0, ![]⟩ : Shape).BroadcastsInDim ⟨1, ![N]⟩ ![])
    (hs : (⟨1, ![N]⟩ : Shape).ShapeCasts ⟨2, ![N, 1]⟩) (n : Fin N) :
    shapeCast ⟨2, ![N, 1]⟩
        (Host.divf (broadcastInDim ⟨1, ![N]⟩ ![] hb (constant (F := Ideal) ⟨0, ![]⟩ .f32 0x3F800000#32))
          (maximumf (broadcastInDim ⟨1, ![N]⟩ ![] hb' (constant (F := Ideal) ⟨0, ![]⟩ .f32 0x3F800000#32)) deg))
        hs (ix2 n (0 : Fin 1))
      = Ideal.div 1 (max 1 (deg (ix1 n))) := by
  refine (shapeCast_apply _ hs (ix2 n (0 : Fin 1)) (ix1 n) ?_).trans ?_
  · rw [Shape.rowMajor_val_one, Shape.rowMajor_val_two]
    show n.val = n.val * 1 + 0
    omega
  · rw [hostDivf_apply]
    show Ideal.div (broadcastInDim ⟨1, ![N]⟩ ![] hb (constant (F := Ideal) ⟨0, ![]⟩ .f32 0x3F800000#32) (ix1 n))
      (max (broadcastInDim ⟨1, ![N]⟩ ![] hb' (constant (F := Ideal) ⟨0, ![]⟩ .f32 0x3F800000#32) (ix1 n)) (deg (ix1 n))) = _
    rw [Hmu.Lib.bcast_const_apply, Ideal.ofBits_one_f32]

end BucketTables
-- ==== Proof.KernelEntry.lean ====
/-
  The arrays the kernel's host code prepares, combined at an entry, give the degree-bucketed combine.

  The host code counts each node's in-neighbours with a wrapping integer scatter of ones: the count is below 2^31, so the
  word is the in-degree itself. From it come the reciprocal of the degree clamped below by one, the bucket word min(degree, 4)
  and its one-hot row: entry (n, b) of the mask is 1 exactly when b is the bucket of n. The neighbour sums are the same
  gather and accumulating scatter the reference performs (a narrowing of the float format is the identity on the extended
  reals). The wide weight table holds the neighbour weights of bucket b, output o, input d at (d, 128·b + o) and the self
  weights at (128 + d, 128·b + o); the bias table is the sum of the two. So bucket b's product plus its bias is the other
  arrangement's term for bucket b, and the masked sum of the five terms against the one-hot row of the node's bucket is the
  reference arrangement's entry.
-/
import proofs.«149878_j936302871077_2_alg».proof.Proof.HostArrays
import proofs.«149878_j936302871077_2_alg».proof.Proof.ArrEntry
import proofs.«149878_j936302871077_2_alg».proof.Proof.LibBucketTables
import proofs.«149878_j936302871077_2_alg».proof.Proof.LibScatterCount
import proofs.«149878_j936302871077_2_alg».proof.Proof.RefValue
import Idealize.ShloMosaic.Lib.IdealHost
import Idealize.ShloMosaic.Lib.ValueIdx

noncomputable section

open scoped BigOperators

namespace Cert.KernelIdeal.KernelEntry

open Cert.KernelIdeal Cert.KernelIdeal.Gen Cert.KernelIdeal.HostArrays
open Idealize.ShloMosaic Idealize.ShloMosaic.ValueIdx

variable (x0 : S200000x128.Idx → EReal) (x1 : S5x128x128.Idx → EReal) (x2 : S5x128.Idx → EReal)
  (x3 : S5x128x128.Idx → EReal) (x4 : S5x128.Idx → EReal) (x5 : S2x625000.Idx → BitVec 32)

/-! ## The in-degree, counted in integers -/

/-- The number of edges the host code's scatter lands on node n is the in-degree both programs share: the two programs
    scatter along the same dimension numbers at the same target column. -/
theorem count_eq (n : Fin 200000) :
    ScatterCount.count scatter_S200000_S625000x1_S625000_n_0_0_1 (colIdx x5) (ix1 n) = Cert.Shared.cnt x5 n := rfl

/-- The integer degree of node n is the word of the in-degree. -/
theorem degI_at (n : Fin 200000) : degI x5 (ix1 n) = BitVec.ofNat 32 (Cert.Shared.cnt x5 n) := by
  unfold degI
  have h0 : broadcastInDim S200000 ![] bcast_S_S200000 (constantI S_ 32 0#32) = fun _ => 0#32 :=
    funext fun j => broadcastInDim_scalar_apply _ _ j
  have h1 : broadcastInDim S625000 ![] bcast_S_S625000 (constantI S_ 32 1#32) = fun _ => 1#32 :=
    funext fun j => broadcastInDim_scalar_apply _ _ j
  rw [h0, h1, ScatterCount.scatter_addi_one, BitVec.zero_add, count_eq]

/-- The degree as a float is the in-degree, as a real. -/
theorem degF_at (n : Fin 200000) : degF x5 (ix1 n) = (((Cert.Shared.cnt x5 n : ℕ) : ℝ) : EReal) := by
  show (((degI x5 (ix1 n)).toInt : ℝ) : EReal) = _
  rw [degI_at, ScatterCount.toInt_ofNat_of_lt _ (Cert.Shared.cnt_lt x5 n), Int.cast_natCast]

/-- The reciprocal column at node n: one over the in-degree clamped below by one. -/
theorem invDeg_at (n : Fin 200000) :
    invDeg x5 (ix2 n (0 : Fin 1)) = Ideal.div 1 (Combine.clampDeg (Cert.Shared.cnt x5 n)) := by
  unfold invDeg
  refine (BucketTables.recip_col_apply (degF x5) _ _ _ n).trans ?_
  rw [degF_at]
  rfl

/-- The bucket word of node n: the word of min(in-degree, 4). -/
theorem bucketW_at (n : Fin 200000) :
    bucketW x5 (ix1 n) = BitVec.ofNat 32 (Combine.bucket (Cert.Shared.cnt x5 n)).val := by
  show IntOp.minsi (degI x5 (ix1 n)) (broadcastInDim S200000 ![] bcast_S_S200000 (constantI S_ 32 4#32) (ix1 n)) = _
  rw [degI_at, broadcastInDim_scalar_apply]
  exact Cert.ReferenceIdeal.RefValue.minsi_ofNat_four _ (Cert.Shared.cnt_lt x5 n)

/-- Two bucket numbers are the same word exactly when they are the same bucket. -/
theorem ofNat_bucket_eq_iff (a b : Fin 5) : BitVec.ofNat 32 a.val = BitVec.ofNat 32 b.val ↔ a = b := by
  constructor
  · intro h
    have h' := congrArg BitVec.toNat h
    simp only [BitVec.toNat_ofNat] at h'
    have := a.isLt
    have := b.isLt
    exact Fin.ext (by omega)
  · intro h
    rw [h]

/-- The mask at (n, b) is 1 when b is the bucket of n and 0 otherwise. -/
theorem mask_at (n : Fin 200000) (b : Fin 5) :
    mask x5 (ix2 n b) = if Combine.bucket (Cert.Shared.cnt x5 n) = b then (1 : EReal) else 0 := by
  unfold mask
  refine (BucketTables.onehot_apply (bucketW x5) _ _ _ n b).trans ?_
  rw [bucketW_at]
  exact if_congr (ofNat_bucket_eq_iff _ b) rfl rfl

/-! ## The neighbour sums and the tables -/

/-- The narrowed neighbour sums are the neighbour sums both programs share. -/
theorem nsum_at (n : Fin 200000) (d : Fin 128) : nsum x0 x5 (ix2 n d) = Cert.Shared.NS x0 x5 (ix2 n d) := rfl

/-- The wide table's upper half holds the neighbour weights. -/
theorem wcat_upper_at (b : Fin 5) (o : Fin 128) (d : Fin 128) :
    wcat x1 x3 (ix2 (Fin.castAdd 128 d) ⟨b.val * 128 + o.val, by omega⟩) = x1 (ix3 b o d) := by
  unfold wcat
  exact BucketTables.wcat_truncf_upper_apply x1 x3 _ _ _ _ _ .bf16 _ d b o _ _ rfl rfl

/-- The wide table's lower half holds the self weights. -/
theorem wcat_lower_at (b : Fin 5) (o : Fin 128) (d : Fin 128) :
    wcat x1 x3 (ix2 (Fin.natAdd 128 d) ⟨b.val * 128 + o.val, by omega⟩) = x3 (ix3 b o d) := by
  unfold wcat
  exact BucketTables.wcat_truncf_lower_apply x1 x3 _ _ _ _ _ .bf16 _ d b o _ _ rfl rfl

/-- The bias table is the sum of the two. -/
theorem biasCat_at (b : Fin 5) (o : Fin 128) : biasCat x2 x4 (ix2 b o) = x2 (ix2 b o) + x4 (ix2 b o) := rfl

/-! ## One bucket's term, and the entry -/

/-- Bucket b's product plus its bias at (n, o) is the other arrangement's term for bucket b. -/
theorem term_eq (n : Fin 200000) (o : Fin 128) (b : Fin 5) :
    Combine.arrProd (nsum x0 x5) x0 (invDeg x5) (wcat x1 x3) n o b + biasCat x2 x4 (ix2 b o)
      = Combine.kerTerm x0 (Cert.Shared.NS x0 x5) x1 x3 x2 x4
          (Ideal.div 1 (Combine.clampDeg (Cert.Shared.cnt x5 n))) n o b := by
  unfold Combine.arrProd Combine.kerTerm
  refine congrArg₂ (· + ·) (congrArg₂ (· + ·) (Finset.sum_congr rfl fun d _ => ?_)
    (Finset.sum_congr rfl fun d _ => ?_)) (biasCat_at x2 x4 b o)
  · rw [nsum_at, invDeg_at, wcat_upper_at]
  · rw [wcat_lower_at]

/-- The prepared arrays combined at (n, o) are the reference arrangement's entry. -/
theorem arrEntry_eq (n : Fin 200000) (o : Fin 128) :
    Combine.arrEntry (mask x5) (nsum x0 x5) x0 (invDeg x5) (wcat x1 x3) (biasCat x2 x4) n o
      = Combine.refEntry x0 (Cert.Shared.NS x0 x5) x1 x3 x2 x4 (Cert.Shared.cnt x5 n) n o := by
  unfold Combine.arrEntry
  rw [mask_at x5 n 0, mask_at x5 n 1, mask_at x5 n 2, mask_at x5 n 3, mask_at x5 n 4,
    term_eq x0 x1 x2 x3 x4 x5 n o 0, term_eq x0 x1 x2 x3 x4 x5 n o 1, term_eq x0 x1 x2 x3 x4 x5 n o 2,
    term_eq x0 x1 x2 x3 x4 x5 n o 3, term_eq x0 x1 x2 x3 x4 x5 n o 4]
  exact Combine.masked_eq_refEntry x0 (Cert.Shared.NS x0 x5) x1 x3 x2 x4 (Cert.Shared.cnt x5 n) n o

/-! ## The result -/

/-- The kernel's prepared arrays, combined entry by entry, are the layer's result. -/
theorem arrOut_eq (x0 : S200000x128.Idx → EReal) (x1 : S5x128x128.Idx → EReal) (x2 : S5x128.Idx → EReal)
    (x3 : S5x128x128.Idx → EReal) (x4 : S5x128.Idx → EReal) (x5 : S2x625000.Idx → BitVec 32) :
    Combine.arrOut (HostArrays.mask x5) (HostArrays.nsum x0 x5) x0 (HostArrays.invDeg x5) (HostArrays.wcat x1 x3) (HostArrays.biasCat x2 x4)
      = Cert.Shared.result x0 x1 x2 x3 x4 x5 := by
  funext i
  obtain ⟨n, o, rfl⟩ : ∃ (n : Fin 200000) (o : Fin 128), i = ix2 n o := ⟨i 0, i 1, eq_ix2 i⟩
  rw [Combine.arrOut_apply, arrEntry_eq]
  rfl

end Cert.KernelIdeal.KernelEntry

end
-- ==== Proof.lean ====
/-
  A mean-aggregating graph layer with degree-bucketed linear maps: the Pallas kernel against its jnp reference, on the
  extended reals.

  Node n with in-degree c has the bucket b = min(c, 4); its output is
      ((Σ_d nw_b(o,d)·(ns(n,d) / max(1,c)) + nb_b(o)) + Σ_d rw_b(o,d)·x(n,d)) + rb_b(o),
  ns the sum of the in-neighbours' feature rows. The reference computes all five buckets for every node and gathers row
  (b, n). The kernel's host code counts the degrees in integers, turns them into a reciprocal column and a one-hot mask,
  lays the ten weight matrices into one [256, 640] table, and each of 100 tiles multiplies [ns·inv | x] by that table once
  and sums the five 128-column bands against the mask.

  Both sides are shown to be ONE function of the argument arrays (Shared.lean's result):
  - the reference, operation by operation (RefValue.lean), the integer and the float degree counting the same set of edges
    (LibScatterCount.lean) and the final two-column gather read at an entry (LibPairGather.lean);
  - the kernel, tile by tile (TileEntry.lean, KernelBlocks.lean), the tiles covering the result (KernelValue.lean), the
    prepared arrays read at an entry (HostArrays.lean, HostMask.lean, LibBucketTables.lean, KernelEntry.lean);
  - the two arrangements joined by 0·t = 0, 1·t = t, a·(1/D) = a/D for D ≥ 1, and commutativity and associativity of + and ·
    (Spec.lean): no entry needs to be finite, so the precondition is never opened.
  The kernel's idealization rewrote nothing, so the preservation claim is empty.
-/
import proofs.«149878_j936302871077_2_alg».proof.Defs
import proofs.«149878_j936302871077_2_alg».proof.Proof.Gen.Kernel
import proofs.«149878_j936302871077_2_alg».proof.Proof.Gen.Kernel.Skeleton
import proofs.«149878_j936302871077_2_alg».proof.Proof.Gen.Kernel.Launch
import proofs.«149878_j936302871077_2_alg».proof.Proof.Gen.Kernel.Points
import proofs.«149878_j936302871077_2_alg».proof.Proof.Gen.Kernel.Frame
import proofs.«149878_j936302871077_2_alg».proof.Proof.Gen.KernelIdeal
import proofs.«149878_j936302871077_2_alg».proof.Proof.Gen.KernelIdeal.Skeleton
import proofs.«149878_j936302871077_2_alg».proof.Proof.Gen.KernelIdeal.Launch
import proofs.«149878_j936302871077_2_alg».proof.Proof.Gen.KernelIdeal.Points
import proofs.«149878_j936302871077_2_alg».proof.Proof.Gen.KernelIdeal.Frame
import proofs.«149878_j936302871077_2_alg».proof.Proof.Gen.ReferenceIdeal
import proofs.«149878_j936302871077_2_alg».proof.Proof.Gen.Pre_finite_inputs
import proofs.«149878_j936302871077_2_alg».proof.Proof.Gen.KernelIdeal.Value
import proofs.«149878_j936302871077_2_alg».proof.Proof.RefRunPatched
import proofs.«149878_j936302871077_2_alg».proof.Proof.RefReadPatched
import proofs.«149878_j936302871077_2_alg».proof.Proof.RefValue
import proofs.«149878_j936302871077_2_alg».proof.Proof.KernelValue
import proofs.«149878_j936302871077_2_alg».proof.Proof.HostArrays
import proofs.«149878_j936302871077_2_alg».proof.Proof.HostMask
import proofs.«149878_j936302871077_2_alg».proof.Proof.KernelEntry
import Idealize.ShloMosaic.Adequacy
import Idealize.ShloMosaic.Init

noncomputable section

namespace Cert.Proof

open Idealize.ShloMosaic Idealize.ShloMosaic.TcCoe Idealize.SL.Sem

/-! ## The kernel's result array -/

section Kernel

open Cert.KernelIdeal Cert.KernelIdeal.Gen

variable (m : (ℓ : Loc Cert.KernelIdeal.nD Cert.KernelIdeal.τ Cert.KernelIdeal.sig) → Buf (Elt Ideal) ℓ)

/-- After the kernel's run its result array is the layer's result of the argument arrays: the tiles cover it with the
    masked five-term sum of the prepared arrays, and that sum is the result entry by entry. -/
theorem kernel_final (c : Dev Cert.KernelIdeal.nD) :
    (dats m 0 c).arrAt 6 cfg0.N
      = Cert.Shared.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [Cert.KernelIdeal.KernelValue.final6]
  unfold Cert.KernelIdeal.KernelValue.arr
  exact Cert.KernelIdeal.KernelEntry.arrOut_eq _ _ _ _ _ _

end Kernel

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs, run from memories that agree on the arguments, end with the layer's result of those arguments. -/
theorem algebraic : Cert.algebraic_KernelIdeal_ReferenceIdeal := by
  intro m ρ m' ρ' _ hagree
  refine ⟨fun c => Cert.Shared.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v50_eq, Cert.ReferenceIdeal.RefValue.ref_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
